-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x4096x4096 : Shape := ⟨3, ![2, 4096, 4096]⟩
abbrev S4096x4096 : Shape := ⟨2, ![4096, 4096]⟩
abbrev S4096 : Shape := ⟨1, ![4096]⟩
abbrev S4096x8 : Shape := ⟨2, ![4096, 8]⟩
abbrev S_ : Shape := ⟨0, ![]⟩

class Facts : Prop where
  bcast_S_S2x4096x4096 : S_.BroadcastsInDim S2x4096x4096 (![] : Fin 0 → Fin S2x4096x4096.rank)
  reducesTo_S2x4096x4096_S_d0_1_2 : S2x4096x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S4096x8 : S_.BroadcastsInDim S4096x8 (![] : Fin 0 → Fin S4096x8.rank)
  reducesTo_S4096x8_S_d0_1 : S4096x8.ReducesTo [0, 1] S_

variable [Facts]

def fn_part1 {F : FTy → Type} [FloatOps F] (main_arg4 : FVec F S4096x8 .f32) (main_v13 : IVec S_ 1) (main_v16 : IVec S4096x8 1) : IVec S_ 1 :=
  let main_c_5 : IVec S_ 1 := constantI S_ 1 1#1
  let main_v17 : IVec S_ 1 := (fun x v => Host.reduce IntOp.andi x v reducesTo_S4096x8_S_d0_1 h_S_) main_v16 main_c_5
  let main_v18 : IVec S_ 1 := andi main_v13 main_v17
  let main_v19 : FVec F S4096x8 .f32 := Host.absf main_arg4
  let main_cst_6 : FVec F S_ .f32 := constant S_ .f32 0x7F800000#32
  let main_v20 : FVec F S4096x8 .f32 := broadcastInDim S4096x8 ![] bcast_S_S4096x8 main_cst_6
  let main_v21 : IVec S4096x8 1 := cmpf .olt main_v19 main_v20
  let main_c_7 : IVec S_ 1 := constantI S_ 1 1#1
  let main_v22 : IVec S_ 1 := (fun x v => Host.reduce IntOp.andi x v reducesTo_S4096x8_S_d0_1 h_S_) main_v21 main_c_7
  let main_v23 : IVec S_ 1 := andi main_v18 main_v22
  main_v23

def fn {F : FTy → Type} [FloatOps F] (main_arg0 : FVec F S2x4096x4096 .f32) (main_arg1 : FVec F S4096x4096 .f32) (main_arg2 : FVec F S4096 .f32) (main_arg3 : FVec F S4096x8 .f32) (main_arg4 : FVec F S4096x8 .f32) : IVec S_ 1 :=
  let main_v0 : FVec F S2x4096x4096 .f32 := Host.absf main_arg0
  let main_cst : FVec F S_ .f32 := constant S_ .f32 0x7F800000#32
  let main_v1 : FVec F S2x4096x4096 .f32 := broadcastInDim S2x4096x4096 ![] bcast_S_S2x4096x4096 main_cst
  let main_v2 : IVec S2x4096x4096 1 := cmpf .olt main_v0 main_v1
  let main_c : IVec S_ 1 := constantI S_ 1 1#1
  let main_v3 : IVec S_ 1 := (fun x v => Host.reduce IntOp.andi x v reducesTo_S2x4096x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096x8 .f32 := Host.absf main_arg3
  let main_cst_4 : FVec F S_ .f32 := constant S_ .f32 0x7F800000#32
  let main_v15 : FVec F S4096x8 .f32 := broadcastInDim S4096x8 ![] bcast_S_S4096x8 main_cst_4
  let main_v16 : IVec S4096x8 1 := cmpf .olt main_v14 main_v15
  fn_part1 (F := F) main_arg4 main_v13 main_v16
-- ==== Kernel.lean ====
abbrev S2x4096x4096 : Shape := ⟨3, ![2, 4096, 4096]⟩
abbrev S4096x4096 : Shape := ⟨2, ![4096, 4096]⟩
abbrev S4096 : Shape := ⟨1, ![4096]⟩
abbrev S4096x8 : Shape := ⟨2, ![4096, 8]⟩
abbrev S8192x4096 : Shape := ⟨2, ![8192, 4096]⟩
abbrev S1x4096 : Shape := ⟨2, ![1, 4096]⟩
abbrev S2048x256 : Shape := ⟨2, ![2048, 256]⟩
abbrev S1024x256 : Shape := ⟨2, ![1024, 256]⟩
abbrev S1x1024 : Shape := ⟨2, ![1, 1024]⟩
abbrev S1024x8 : Shape := ⟨2, ![1024, 8]⟩
abbrev S256x8 : Shape := ⟨2, ![256, 8]⟩
abbrev S2048x1024 : Shape := ⟨2, ![2048, 1024]⟩
abbrev S2048x8 : Shape := ⟨2, ![2048, 8]⟩

abbrev nBuf : Space → Nat
  | .hbm => 9
  | .vmem => 13
  | .smem => 0
  | _ => 0

abbrev bufTy : (tb : Table) → Fin (tcTables nBuf tb) → BufTy
  | .hbm, ⟨0, _⟩ => ⟨S2x4096x4096, .f32⟩
  | .hbm, ⟨1, _⟩ => ⟨S4096x4096, .f32⟩
  | .hbm, ⟨2, _⟩ => ⟨S4096, .f32⟩
  | .hbm, ⟨3, _⟩ => ⟨S4096x8, .f32⟩
  | .hbm, ⟨4, _⟩ => ⟨S4096x8, .f32⟩
  | .hbm, ⟨5, _⟩ => ⟨S8192x4096, .f32⟩
  | .hbm, ⟨6, _⟩ => ⟨S1x4096, .f32⟩
  | .hbm, ⟨7, _⟩ => ⟨S8192x4096, .f32⟩
  | .hbm, ⟨8, _⟩ => ⟨S2x4096x4096, .f32⟩
  | .local _ .vmem, ⟨0, _⟩ => ⟨S2048x256, .f32⟩
  | .local _ .vmem, ⟨1, _⟩ => ⟨S2048x256, .f32⟩
  | .local _ .vmem, ⟨2, _⟩ => ⟨S1024x256, .f32⟩
  | .local _ .vmem, ⟨3, _⟩ => ⟨S1024x256, .f32⟩
  | .local _ .vmem, ⟨4, _⟩ => ⟨S1x1024, .f32⟩
  | .local _ .vmem, ⟨5, _⟩ => ⟨S1x1024, .f32⟩
  | .local _ .vmem, ⟨6, _⟩ => ⟨S1024x8, .f32⟩
  | .local _ .vmem, ⟨7, _⟩ => ⟨S1024x8, .f32⟩
  | .local _ .vmem, ⟨8, _⟩ => ⟨S256x8, .f32⟩
  | .local _ .vmem, ⟨9, _⟩ => ⟨S256x8, .f32⟩
  | .local _ .vmem, ⟨10, _⟩ => ⟨S2048x1024, .f32⟩
  | .local _ .vmem, ⟨11, _⟩ => ⟨S2048x1024, .f32⟩
  | .local _ .vmem, ⟨12, _⟩ => ⟨S2048x8, .f32⟩
  | _, _ => ⟨S2x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 4, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S256x8 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S2048x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

class Facts₀ : Prop where
  shapeCasts_S2x4096x4096_S8192x4096 : S2x4096x4096.ShapeCasts S8192x4096
  shapeCasts_S4096_S1x4096 : S4096.ShapeCasts S1x4096
  inb_S2048x1024_S2048x1024_0_0 : ∀ a, (![0, 0] : Fin 2 → Nat) a + S2048x1024.size a ≤ S2048x1024.size a
  h_S2048x1024 : 0 < S2048x1024.numel
  inb_S2048x8_S2048x8_0_0 : ∀ a, (![0, 0] : Fin 2 → Nat) a + S2048x8.size a ≤ S2048x8.size a
  h_S2048x8 : 0 < S2048x8.numel
  shapeCasts_S2048x8_S2048x8 : S2048x8.ShapeCasts S2048x8
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  bitsLt_bf16_f32 : FTy.bits .bf16 < FTy.bits .f32
  inb_S1024x256_S1024x256_0_0 : ∀ a, (![0, 0] : Fin 2 → Nat) a + S1024x256.size a ≤ S1024x256.size a
  h_S1024x256 : 0 < S1024x256.numel
  inb_S256x8_S256x8_0_0 : ∀ a, (![0, 0] : Fin 2 → Nat) a + S256x8.size a ≤ S256x8.size a
  h_S256x8 : 0 < S256x8.numel
  shapeCasts_S2048x1024_S2048x1024 : S2048x1024.ShapeCasts S2048x1024
  inb_S1024x8_S1024x8_0_0 : ∀ a, (![0, 0] : Fin 2 → Nat) a + S1024x8.size a ≤ S1024x8.size a
  h_S1024x8 : 0 < S1024x8.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  shapeCasts_S8192x4096_S2x4096x4096 : S8192x4096.ShapeCasts S2x4096x4096
  dot_S2048x256_S1024x256_S2048x1024_1_1_0_0_n_n_wf : DotDims.WF S2048x256 S1024x256 S2048x1024 [1] [1] [0] [0] [] []
  dot_S2048x256_S256x8_S2048x8_1_0_0_1_n_n_wf : DotDims.WF S2048x256 S256x8 S2048x8 [1] [0] [0] [1] [] []
  dot_S2048x8_S1024x8_S2048x1024_1_1_0_0_n_n_wf : DotDims.WF S2048x8 S1024x8 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S8192x4096.size a
  hwx0_0 : ∀ i : grid0.Coords, EltTy.bits .f32 = 32 ∨ (Rect.block (s := S8192x4096) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S4096x4096.size a
  hwx0_1 : ∀ i : grid0.Coords, EltTy.bits .f32 = 32 ∨ (Rect.block (s := S4096x4096) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x8.size a ≤ S4096x8.size a
  hwx0_3 : ∀ i : grid0.Coords, EltTy.bits .f32 = 32 ∨ (Rect.block (s := S4096x8) S1024x8.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x8.size a ≤ S4096x8.size a
  hwx0_4 : ∀ i : grid0.Coords, EltTy.bits .f32 = 32 ∨ (Rect.block (s := S4096x8) S256x8.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x1024.size a ≤ S8192x4096.size a
  hwx0_5 : ∀ i : grid0.Coords, EltTy.bits .f32 = 32 ∨ (Rect.block (s := S8192x4096) S2048x1024.size (cc0_transform_5 i) (hinb0_5 i)).WholeWords (EltTy.packing .f32)

variable [Facts₀]

def dot_S2048x256_S1024x256_S2048x1024_1_1_0_0_n_n : DotDims S2048x256 S1024x256 S2048x1024 where
  lhsContracting := [1]
  rhsContracting := [1]
  lhsNonContracting := [0]
  rhsNonContracting := [0]
  lhsBatch := []
  rhsBatch := []
  wf := dot_S2048x256_S1024x256_S2048x1024_1_1_0_0_n_n_wf
def dot_S2048x256_S256x8_S2048x8_1_0_0_1_n_n : DotDims S2048x256 S256x8 S2048x8 where
  lhsContracting := [1]
  rhsContracting := [0]
  lhsNonContracting := [0]
  rhsNonContracting := [1]
  lhsBatch := []
  rhsBatch := []
  wf := dot_S2048x256_S256x8_S2048x8_1_0_0_1_n_n_wf
def dot_S2048x8_S1024x8_S2048x1024_1_1_0_0_n_n : DotDims S2048x8 S1024x8 S2048x1024 where
  lhsContracting := [1]
  rhsContracting := [1]
  lhsNonContracting := [0]
  rhsNonContracting := [0]
  lhsBatch := []
  rhsBatch := []
  wf := dot_S2048x8_S1024x8_S2048x1024_1_1_0_0_n_n_wf

abbrev win0_0 : Pipeline.Window sig grid0 :=
  Pipeline.Window.ofSpec (Memref.whole main_v0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x8.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x8.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2) S2048x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2x4096x4096 : Shape := ⟨3, ![2, 4096, 4096]⟩
abbrev S4096x4096 : Shape := ⟨2, ![4096, 4096]⟩
abbrev S4096 : Shape := ⟨1, ![4096]⟩
abbrev S4096x8 : Shape := ⟨2, ![4096, 8]⟩
abbrev S1x1x4096 : Shape := ⟨3, ![1, 1, 4096]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S2x4096x4096, .f32⟩
  | .hbm, ⟨1, _⟩ => ⟨S4096x4096, .f32⟩
  | .hbm, ⟨2, _⟩ => ⟨S4096, .f32⟩
  | .hbm, ⟨3, _⟩ => ⟨S4096x8, .f32⟩
  | .hbm, ⟨4, _⟩ => ⟨S4096x8, .f32⟩
  | .hbm, ⟨5, _⟩ => ⟨S2x4096x4096, .f32⟩
  | .hbm, ⟨6, _⟩ => ⟨S1x1x4096, .f32⟩
  | .hbm, ⟨7, _⟩ => ⟨S2x4096x4096, .f32⟩
  | .hbm, ⟨8, _⟩ => ⟨S2x4096x4096, .f32⟩
  | .hbm, ⟨9, _⟩ => ⟨S4096x4096, .f32⟩
  | .hbm, ⟨10, _⟩ => ⟨S2x4096x4096, .f32⟩
  | .hbm, ⟨11, _⟩ => ⟨S_, .f32⟩
  | .hbm, ⟨12, _⟩ => ⟨S2x4096x4096, .f32⟩
  | .hbm, ⟨13, _⟩ => ⟨S2x4096x4096, .f32⟩
  | .hbm, ⟨14, _⟩ => ⟨S2x4096x4096, .f32⟩
  | _, _ => ⟨S2x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S2x4096x4096_0_1_2 : S1x1x4096.BroadcastsInDim S2x4096x4096 (![0, 1, 2] : Fin 3 → Fin S2x4096x4096.rank)
  bcast_S_S2x4096x4096 : S_.BroadcastsInDim S2x4096x4096 (![] : Fin 0 → Fin S2x4096x4096.rank)
  dot_S2x4096x4096_S4096x4096_S2x4096x4096_2_1_01_0_n_n_wf : DotDims.WF S2x4096x4096 S4096x4096 S2x4096x4096 [2] [1] [0, 1] [0] [] []
  dot_S4096x8_S4096x8_S4096x4096_1_1_0_0_n_n_wf : DotDims.WF S4096x8 S4096x8 S4096x4096 [1] [1] [0] [0] [] []

variable [Facts₀]

def dot_S2x4096x4096_S4096x4096_S2x4096x4096_2_1_01_0_n_n : DotDims S2x4096x4096 S4096x4096 S2x4096x4096 where
  lhsContracting := [2]
  rhsContracting := [1]
  lhsNonContracting := [0, 1]
  rhsNonContracting := [0]
  lhsBatch := []
  rhsBatch := []
  wf := dot_S2x4096x4096_S4096x4096_S2x4096x4096_2_1_01_0_n_n_wf
def dot_S4096x8_S4096x8_S4096x4096_1_1_0_0_n_n : DotDims S4096x8 S4096x8 S4096x4096 where
  lhsContracting := [1]
  rhsContracting := [1]
  lhsNonContracting := [0]
  rhsNonContracting := [0]
  lhsBatch := []
  rhsBatch := []
  wf := dot_S4096x8_S4096x8_S4096x4096_1_1_0_0_n_n_wf

class Facts : Prop extends Facts₀ where

variable [Facts]
-- ==== Proof.Spec.lean ====
/-
  A linear layer with a rank-8 correction, entry by entry on the extended reals.

  For x of shape [2, 4096, 4096], W of shape [4096, 4096], a bias b of length 4096 and two thin factors A, B of shape
  [4096, 8], the layer's value at (s, t, o) can be written two ways.  Contracting the thin axis LAST,

      sum_k x(s,t,k) W(o,k)  +  ( (sum_r (sum_k x(s,t,k) B(k,r)) A(o,r)) * c  +  b(o) ),

  or building the correction matrix D(o,k) = sum_r A(o,r) B(k,r) FIRST,

      ( sum_k x(s,t,k) W(o,k) + b(o) )  +  (sum_k x(s,t,k) D(o,k)) * c.

  The two differ by a regrouping of the outer sum, which holds on all extended reals, and by the exchange
  sum_r (sum_k x_k B_kr) A_r = sum_k x_k (sum_r A_r B_kr), which distributes products over sums and therefore needs
  x, A and B to be real numbers (no infinities): over the reals it is the exchange of two finite sums.
-/
import Idealize.ShloMosaic.Lib.ValueIdx
import Idealize.ShloMosaic.PureOps.Ideal

noncomputable section

open scoped BigOperators

namespace Cert.LowRankLinear

open Idealize.ShloMosaic Idealize.ShloMosaic.ValueIdx

/-- The coercion of a finite sum of reals is the sum of the coercions. -/
theorem coe_sum {ι : Type*} (s : Finset ι) (f : ι → ℝ) : ((∑ i ∈ s, f i : ℝ) : EReal) = ∑ i ∈ s, (f i : EReal) := by
  classical
  refine Finset.induction_on s (by simp) fun a s ha ih => ?_
  rw [Finset.sum_insert ha, Finset.sum_insert ha, EReal.coe_add, ih]

/-- Over the reals: contracting the thin axis last or first is the same number. -/
theorem exchange_real {n r : ℕ} (X : Fin n → ℝ) (Bm : Fin n → Fin r → ℝ) (A : Fin r → ℝ) :
    ∑ j : Fin r, (∑ k : Fin n, X k * Bm k j) * A j = ∑ k : Fin n, X k * ∑ j : Fin r, A j * Bm k j := by
  simp_rw [Finset.sum_mul, Finset.mul_sum]
  rw [Finset.sum_comm]
  refine Finset.sum_congr rfl fun k _ => Finset.sum_congr rfl fun j _ => ?_
  ring

/-- The same on the extended reals, for entries that are real numbers. -/
theorem exchange {n r : ℕ} (X : Fin n → EReal) (Bm : Fin n → Fin r → EReal) (A : Fin r → EReal)
    (hX : ∀ k, ∃ v : ℝ, X k = v) (hB : ∀ k j, ∃ v : ℝ, Bm k j = v) (hA : ∀ j, ∃ v : ℝ, A j = v) :
    ∑ j : Fin r, (∑ k : Fin n, X k * Bm k j) * A j = ∑ k : Fin n, X k * ∑ j : Fin r, A j * Bm k j := by
  choose X' hX' using hX
  choose B' hB' using hB
  choose A' hA' using hA
  have e1 : ∑ j : Fin r, (∑ k : Fin n, X k * Bm k j) * A j
      = ((∑ j : Fin r, (∑ k : Fin n, X' k * B' k j) * A' j : ℝ) : EReal) := by
    rw [coe_sum]
    refine Finset.sum_congr rfl fun j _ => ?_
    rw [EReal.coe_mul, coe_sum, hA' j]
    refine congrArg (· * _) (Finset.sum_congr rfl fun k _ => ?_)
    rw [EReal.coe_mul, hX' k, hB' k j]
  have e2 : ∑ k : Fin n, X k * ∑ j : Fin r, A j * Bm k j
      = ((∑ k : Fin n, X' k * ∑ j : Fin r, A' j * B' k j : ℝ) : EReal) := by
    rw [coe_sum]
    refine Finset.sum_congr rfl fun k _ => ?_
    rw [EReal.coe_mul, coe_sum, hX' k]
    refine congrArg (_ * ·) (Finset.sum_congr rfl fun j _ => ?_)
    rw [EReal.coe_mul, hA' j, hB' k j]
  rw [e1, e2, exchange_real]

/-- The shapes of the five arguments and of the result. -/
abbrev SX : Shape := ⟨3, ![2, 4096, 4096]⟩
abbrev SW : Shape := ⟨2, ![4096, 4096]⟩
abbrev Sb : Shape := ⟨1, ![4096]⟩
abbrev ST : Shape := ⟨2, ![4096, 8]⟩

/-- The scale the correction is multiplied by: the same 32-bit pattern in both programs, never evaluated. -/
abbrev scale : EReal := Ideal.ofBits .f32 0x40000000#32

/-- The base product at (s, t, o): row (s, t) of x against row o of W. -/
def base (x : FVec Ideal SX .f32) (w : FVec Ideal SW .f32) (s : Fin 2) (t o : Fin 4096) : EReal :=
  ∑ k : Fin 4096, x (ix3 s t k) * w (ix2 o k)

/-- Row (s, t) of x against column r of B: the thin intermediate. -/
def thin (x : FVec Ideal SX .f32) (bm : FVec Ideal ST .f32) (s : Fin 2) (t : Fin 4096) (r : Fin 8) : EReal :=
  ∑ k : Fin 4096, x (ix3 s t k) * bm (ix2 k r)

/-- The layer with the thin axis contracted last. -/
def thinLast (x : FVec Ideal SX .f32) (w : FVec Ideal SW .f32) (b : FVec Ideal Sb .f32) (a bm : FVec Ideal ST .f32) :
    FVec Ideal SX .f32 := fun i =>
  base x w (i 0) (i 1) (i 2) + ((∑ r : Fin 8, thin x bm (i 0) (i 1) r * a (ix2 (i 2) r)) * scale + b (ix1 (i 2)))

/-- The layer with the correction matrix built first. -/
def matrixFirst (x : FVec Ideal SX .f32) (w : FVec Ideal SW .f32) (b : FVec Ideal Sb .f32) (a bm : FVec Ideal ST .f32) :
    FVec Ideal SX .f32 := fun i =>
  (base x w (i 0) (i 1) (i 2) + b (ix1 (i 2)))
    + (∑ k : Fin 4096, x (ix3 (i 0) (i 1) k) * ∑ r : Fin 8, a (ix2 (i 2) r) * bm (ix2 k r)) * scale

/-- For real entries of x, A and B the two forms are one function. -/
theorem matrixFirst_eq_thinLast (x : FVec Ideal SX .f32) (w : FVec Ideal SW .f32) (b : FVec Ideal Sb .f32)
    (a bm : FVec Ideal ST .f32) (hx : ∀ j, ∃ v : ℝ, x j = v) (ha : ∀ j, ∃ v : ℝ, a j = v) (hb : ∀ j, ∃ v : ℝ, bm j = v) :
    matrixFirst x w b a bm = thinLast x w b a bm := by
  funext i
  unfold matrixFirst thinLast thin
  rw [exchange (fun k => x (ix3 (i 0) (i 1) k)) (fun k r => bm (ix2 k r)) (fun r => a (ix2 (i 2) r))
    (fun k => hx _) (fun k r => hb _) (fun r => ha _)]
  rw [add_assoc, add_comm (b _)]

end Cert.LowRankLinear

end
-- ==== Proof.Finite.lean ====
import proofs.«137652_j60919816126704_2_alg».proof.Pre_finite_inputs
import proofs.«137652_j60919816126704_2_alg».proof.Proof.Spec
import Idealize.ShloMosaic.Lib.ReduceAll
import Idealize.ShloMosaic.PureOps.Ideal

/-
  The precondition, read back: every entry of x, A and B is a real number.

  The precondition tests, array by array, that |v| < +inf at every entry v and takes the conjunction of the five
  answers.  On the extended reals |v| is max(v, -v), and max(v, -v) < +inf excludes both infinities: v = +inf makes
  the maximum +inf, and v = -inf makes -v = +inf.  What is left is a real number.
-/

noncomputable section

namespace Cert.LowRankLinear

open Idealize.ShloMosaic Idealize.ShloMosaic.ValueIdx

/-- The shape with no axes has exactly one index. -/
instance scalarIdx_subsingleton : Subsingleton (⟨0, ![]⟩ : Shape).Idx := ⟨fun a b => funext fun d => d.elim0⟩

/-- The pattern 0x7F800000 (sign 0, exponent all ones, fraction 0) is +inf. -/
theorem ofBits_inf : Ideal.ofBits .f32 0x7F800000#32 = ⊤ := by simp [Ideal.ofBits, Ideal.ieee]

/-- An extended real v with max(v, -v) < +inf is a real number. -/
theorem real_of_abs_lt_top (v : EReal) (h : max v (-v) < ⊤) : ∃ r : ℝ, v = (r : EReal) := by
  induction v with
  | bot => simp at h
  | coe r => exact ⟨r, rfl⟩
  | top => simp at h

/-- One entry's test: if "|v| < +inf" answers 1, then v is a real number. -/
theorem real_of_test (v : Ideal .f32)
    (h : FloatOps.cmpf .olt (FloatOps.hostAbsf v) (FloatOps.ofBits (F := Ideal) .f32 0x7F800000#32) = 1#1) :
    ∃ r : ℝ, (v : EReal) = (r : EReal) := by
  have h' : Ideal.cmp .olt (max (v : EReal) (-(v : EReal))) (Ideal.ofBits .f32 0x7F800000#32) = 1#1 := h
  rw [ofBits_inf] at h'
  unfold Ideal.cmp at h'
  refine real_of_abs_lt_top v ?_
  by_contra hn
  simp [hn] at h'

/-- One array's test: if the conjunction over all entries of "|v| < +inf" answers 1, every entry is a real number. -/
theorem real_of_all {s : Shape} {axes : List (Fin s.rank)} (x : FVec Ideal s .f32)
    (hb : (⟨0, ![]⟩ : Shape).BroadcastsInDim s (![] : Fin 0 → Fin s.rank))
    (hr : s.ReducesTo axes (⟨0, ![]⟩ : Shape)) (hu : 0 < (⟨0, ![]⟩ : Shape).numel) (init : IVec (⟨0, ![]⟩ : Shape) 1)
    (e : Host.reduce IntOp.andi
          (cmpf .olt (Host.absf x) (broadcastInDim s ![] hb (constant (F := Ideal) (⟨0, ![]⟩ : Shape) .f32 0x7F800000#32)))
          init hr hu ix0 = 1#1) :
    ∀ j, ∃ r : ℝ, x j = (r : EReal) := by
  intro j
  exact real_of_test (x j) (Host.reduce_andi_all _ init hr hu ix0 e j)

/-- The conjunction of two arrays of truth values, at an index, is the conjunction of their entries there. -/
theorem andi_apply {s : Shape} {n : Nat} (p q : IVec s n) (i : s.Idx) : andi p q i = IntOp.andi (p i) (q i) := rfl

/-- Under the precondition, x, A and B have only real entries: the precondition's value is the conjunction of the
    five arrays' tests, so each test answers 1, and the tests of x, A and B give the three claims. -/
theorem real_of_finite [Cert.Pre_finite_inputs.Facts]
    (x : FVec Ideal SX .f32) (w : FVec Ideal SW .f32) (b : FVec Ideal Sb .f32) (a bm : FVec Ideal ST .f32)
    (h : Cert.Pre_finite_inputs.fn (F := Ideal) x w b a bm = fun _ => 1#1) :
    (∀ j, ∃ v : ℝ, x j = (v : EReal)) ∧ (∀ j, ∃ v : ℝ, a j = (v : EReal)) ∧ (∀ j, ∃ v : ℝ, bm j = (v : EReal)) := by
  have e := congrFun h ix0
  unfold Cert.Pre_finite_inputs.fn Cert.Pre_finite_inputs.fn_part1 at e
  dsimp only at e
  rw [andi_apply, andi_apply, andi_apply, andi_apply, IntOp.andi_eq_one, IntOp.andi_eq_one, IntOp.andi_eq_one,
    IntOp.andi_eq_one] at e
  obtain ⟨⟨⟨⟨hx, -⟩, -⟩, ha⟩, hbm⟩ := e
  exact ⟨real_of_all x _ _ _ _ hx, real_of_all a _ _ _ _ ha, real_of_all bm _ _ _ _ hbm⟩

end Cert.LowRankLinear

end
-- ==== Proof.RefValue.lean ====
import proofs.«137652_j60919816126704_2_alg».proof.Defs
import proofs.«137652_j60919816126704_2_alg».proof.Proof.Gen.ReferenceIdeal.Run
import proofs.«137652_j60919816126704_2_alg».proof.Proof.Gen.ReferenceIdeal.Read
import proofs.«137652_j60919816126704_2_alg».proof.Proof.Spec

/-
  The reference program, read entry by entry.

  The reference computes, at (s, t, o),

      ( sum_k x(s,t,k) W(o,k) + b(o) )  +  ( sum_k x(s,t,k) D(o,k) ) * c,     D(o,k) = sum_r A(o,r) B(k,r),

  with the correction matrix D built before it meets x.  This file reads the reference's last value off its
  operations one at a time and finds exactly that expression: the function `matrixFirst` of the specification.
  Nothing is regrouped here, so the identity holds for all extended-real entries.
-/

noncomputable section

open scoped BigOperators

namespace Cert.LowRankLinear

open Idealize.ShloMosaic Idealize.ShloMosaic.ValueIdx Cert.ReferenceIdeal Cert.ReferenceIdeal.Read

/-! ## Where each operation reads its operands, at an index given by its coordinates -/

/-- The base product reads x at row (s, t), column k. -/
theorem lidx_v0_ix (s : Fin 2) (t o k : Fin 4096) : lidx_main_v0 (ix3 s t o) k = ix3 s t k := by
  funext d
  match d with
  | ⟨0, _⟩ => rfl
  | ⟨1, _⟩ => rfl
  | ⟨2, _⟩ => rfl

/-- The base product reads W at row o, column k. -/
theorem ridx_v0_ix (s : Fin 2) (t o k : Fin 4096) : ridx_main_v0 (ix3 s t o) k = ix2 o k := by
  funext d
  match d with
  | ⟨0, _⟩ => rfl
  | ⟨1, _⟩ => rfl

/-- The bias, stretched over the leading axes, is read at o. -/
theorem idx_v1_v2_ix (s : Fin 2) (t o : Fin 4096) : idx_main_v1 (idx_main_v2 (ix3 s t o)) = ix1 o := by
  funext d
  match d with
  | ⟨0, _⟩ => rfl

/-- The correction product reads x at row (s, t), column k. -/
theorem lidx_v5_ix (s : Fin 2) (t o k : Fin 4096) : lidx_main_v5 (ix3 s t o) k = ix3 s t k := by
  funext d
  match d with
  | ⟨0, _⟩ => rfl
  | ⟨1, _⟩ => rfl
  | ⟨2, _⟩ => rfl

/-- The correction product reads the correction matrix at row o, column k. -/
theorem ridx_v5_ix (s : Fin 2) (t o k : Fin 4096) : ridx_main_v5 (ix3 s t o) k = ix2 o k := by
  funext d
  match d with
  | ⟨0, _⟩ => rfl
  | ⟨1, _⟩ => rfl

/-- Entry (o, k) of the correction matrix reads A at row o, column r. -/
theorem lidx_v4_ix (o k : Fin 4096) (r : Fin 8) : lidx_main_v4 (ix2 o k) r = ix2 o r := by
  funext d
  match d with
  | ⟨0, _⟩ => rfl
  | ⟨1, _⟩ => rfl

/-- Entry (o, k) of the correction matrix reads B at row k, column r. -/
theorem ridx_v4_ix (o k : Fin 4096) (r : Fin 8) : ridx_main_v4 (ix2 o k) r = ix2 k r := by
  funext d
  match d with
  | ⟨0, _⟩ => rfl
  | ⟨1, _⟩ => rfl

/-- The matrix-first form at an index given by its coordinates. -/
theorem matrixFirst_ix (x : FVec Ideal SX .f32) (w : FVec Ideal SW .f32) (b : FVec Ideal Sb .f32) (a bm : FVec Ideal ST .f32)
    (s : Fin 2) (t o : Fin 4096) :
    matrixFirst x w b a bm (ix3 s t o)
      = (∑ k : Fin 4096, x (ix3 s t k) * w (ix2 o k) + b (ix1 o))
        + (∑ k : Fin 4096, x (ix3 s t k) * ∑ r : Fin 8, a (ix2 o r) * bm (ix2 k r)) * scale := rfl

/-! ## The reference's value -/

/-- The reference's result is the matrix-first form of the layer: at (s, t, o) it is the base product of row (s, t)
    of x with row o of W, plus b(o), plus the scaled product of the same row of x with row o of the correction
    matrix, each of whose entries is the sum over the thin axis of A(o, r) B(k, r). -/
theorem ref_eq [Cert.ReferenceIdeal.Facts]
    (x : FVec Ideal SX .f32) (w : FVec Ideal SW .f32) (b : FVec Ideal Sb .f32) (a bm : FVec Ideal ST .f32) :
    Cert.ReferenceIdeal.Read.val_main_v8 (F := Ideal) x w b a bm = matrixFirst x w b a bm := by
  funext i
  obtain ⟨s, t, o, rfl⟩ : ∃ (s : Fin 2) (t o : Fin 4096), i = ix3 s t o := ⟨i 0, i 1, i 2, eq_ix3 i⟩
  rw [val_main_v8_apply, val_main_v3_apply, val_main_v7_apply, val_main_v0_apply, val_main_v2_apply,
    val_main_v1_apply, val_main_v5_apply, val_main_v6_apply, val_main_cst_apply]
  rw [Ideal.addf_def, Ideal.addf_def, Ideal.mulf_def, Ideal.ofBits_def, matrixFirst_ix, idx_v1_v2_ix]
  congr 1
  · congr 1
    refine Finset.sum_congr rfl fun k _ => ?_
    rw [lidx_v0_ix, ridx_v0_ix]
  · congr 1
    refine Finset.sum_congr rfl fun k _ => ?_
    rw [lidx_v5_ix, ridx_v5_ix, val_main_v4_apply]
    congr 1
    refine Finset.sum_congr rfl fun r _ => ?_
    rw [lidx_v4_ix, ridx_v4_ix]

end Cert.LowRankLinear

end
-- ==== Proof.Pieces.lean ====
/-
  What one call of the kernel body leaves behind, as values.

  The body keeps two running quantities across the sixteen steps of the contraction axis: the output block (2048 x 1024)
  and a thin block (2048 x 8).  At the first step both are reset to zero and then receive the step's contribution; at a
  middle step each receives its contribution on top of what the step before left; at the last step, after the two
  contributions, the output block also receives the low-rank correction and the bias, computed from the thin block as
  it stands AFTER this step's contribution.  Each lemma below says that what the body leaves in a buffer is the named
  arithmetic of the body's loads: a whole-buffer load returns the buffer's contents, and a load that follows a
  whole-buffer store returns what was stored.
-/
import proofs.«137652_j60919816126704_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

/-- Every access of the body starts at the origin of its buffer. -/
theorem hz : (![0, 0] : Fin 2 → Nat) = fun _ => 0 := funext fun a => by fin_cases a <;> rfl

/-- A middle step: the output block holds what it held plus this step's product of the x block with the W block. -/
theorem out_B (c : Dev nD) (i : grid0.Coords) (arg3 : Memref sig .tc .vmem S2048x256 .f32) (harg3 : arg3.IsWhole) (arg4 : Memref sig .tc .vmem S1024x256 .f32) (harg4 : arg4.IsWhole) (arg5 : Memref sig .tc .vmem S1x1024 .f32) (harg5 : arg5.IsWhole) (arg6 : Memref sig .tc .vmem S1024x8 .f32) (harg6 : arg6.IsWhole) (arg7 : Memref sig .tc .vmem S256x8 .f32) (harg7 : arg7.IsWhole) (arg8 : Memref sig .tc .vmem S2048x1024 .f32) (harg8 : arg8.IsWhole) (arg9 : Memref sig .tc .vmem S2048x8 .f32) (harg9 : arg9.IsWhole) (hc0 : ¬cond0_0 i) (hc1 : ¬cond0_1 i) (x0 : Vec F S2048x256 .f32) (x1 : Vec F S1024x256 .f32) (x2 : Vec F S1x1024 .f32) (x3 : Vec F S1024x8 .f32) (x4 : Vec F S256x8 .f32) (xo5 : Vec F S2048x1024 .f32) (xs0 : Vec F S2048x8 .f32) :
    out0_B_5 c i arg3 harg3 arg4 harg4 arg5 harg5 arg6 harg6 arg7 harg7 arg8 harg8 arg9 harg9 hc0 hc1 x0 x1 x2 x3 x4 xo5 xs0 = k0_pay4 x0 x1 xo5 := by
  unfold out0_B_5
  rw [View.read_writes_eq_canon _ _ _ (cover0_B_5 c i arg3 harg3 arg4 harg4 arg5 harg5 arg6 harg6 arg7 harg7 arg8 harg8 arg9 harg9 hc0 hc1 x0 x1 x2 x3 x4 xo5 xs0)]
  unfold kernelRun0_B
  dsimp only
  rw [View.canon_unit_zero hz]
  simp only [View.readAt_eq_ld, harg3.read_unread, harg4.read_unread, harg5.read_unread, harg6.read_unread, harg7.read_unread, harg8.read_unread, harg9.read_unread,
    View.ld_unit_zero (S := S2048x256) hz, View.ld_unit_zero (S := S1024x256) hz, View.ld_unit_zero (S := S1x1024) hz, View.ld_unit_zero (S := S1024x8) hz,
    View.ld_unit_zero (S := S256x8) hz, View.ld_unit_zero (S := S2048x1024) hz, View.ld_unit_zero (S := S2048x8) hz]

/-- A middle step: the thin block holds what it held plus this step's product of the x block with the B block. -/
theorem sout_B (c : Dev nD) (i : grid0.Coords) (arg3 : Memref sig .tc .vmem S2048x256 .f32) (harg3 : arg3.IsWhole) (arg4 : Memref sig .tc .vmem S1024x256 .f32) (harg4 : arg4.IsWhole) (arg5 : Memref sig .tc .vmem S1x1024 .f32) (harg5 : arg5.IsWhole) (arg6 : Memref sig .tc .vmem S1024x8 .f32) (harg6 : arg6.IsWhole) (arg7 : Memref sig .tc .vmem S256x8 .f32) (harg7 : arg7.IsWhole) (arg8 : Memref sig .tc .vmem S2048x1024 .f32) (harg8 : arg8.IsWhole) (arg9 : Memref sig .tc .vmem S2048x8 .f32) (harg9 : arg9.IsWhole) (hc0 : ¬cond0_0 i) (hc1 : ¬cond0_1 i) (x0 : Vec F S2048x256 .f32) (x1 : Vec F S1024x256 .f32) (x2 : Vec F S1x1024 .f32) (x3 : Vec F S1024x8 .f32) (x4 : Vec F S256x8 .f32) (xo5 : Vec F S2048x1024 .f32) (xs0 : Vec F S2048x8 .f32) :
    sout0_B_0 c i arg3 harg3 arg4 harg4 arg5 harg5 arg6 harg6 arg7 harg7 arg8 harg8 arg9 harg9 hc0 hc1 x0 x1 x2 x3 x4 xo5 xs0 = k0_pay5 x0 x4 xs0 := by
  unfold sout0_B_0
  rw [View.read_writes_eq_canon _ _ _ (scover0_B_0 c i arg3 harg3 arg4 harg4 arg5 harg5 arg6 harg6 arg7 harg7 arg8 harg8 arg9 harg9 hc0 hc1 x0 x1 x2 x3 x4 xo5 xs0)]
  unfold kernelRun0_B
  dsimp only
  rw [View.canon_unit_zero hz]
  simp only [View.readAt_eq_ld, harg3.read_unread, harg4.read_unread, harg5.read_unread, harg6.read_unread, harg7.read_unread, harg8.read_unread, harg9.read_unread,
    View.ld_unit_zero (S := S2048x256) hz, View.ld_unit_zero (S := S1024x256) hz, View.ld_unit_zero (S := S1x1024) hz, View.ld_unit_zero (S := S1024x8) hz,
    View.ld_unit_zero (S := S256x8) hz, View.ld_unit_zero (S := S2048x1024) hz, View.ld_unit_zero (S := S2048x8) hz]

/-- The first step: the output block is reset to the zero block, read back, and receives the step's product. -/
theorem out_A (c : Dev nD) (i : grid0.Coords) (arg3 : Memref sig .tc .vmem S2048x256 .f32) (harg3 : arg3.IsWhole) (arg4 : Memref sig .tc .vmem S1024x256 .f32) (harg4 : arg4.IsWhole) (arg5 : Memref sig .tc .vmem S1x1024 .f32) (harg5 : arg5.IsWhole) (arg6 : Memref sig .tc .vmem S1024x8 .f32) (harg6 : arg6.IsWhole) (arg7 : Memref sig .tc .vmem S256x8 .f32) (harg7 : arg7.IsWhole) (arg8 : Memref sig .tc .vmem S2048x1024 .f32) (harg8 : arg8.IsWhole) (arg9 : Memref sig .tc .vmem S2048x8 .f32) (harg9 : arg9.IsWhole) (hc0 : cond0_0 i) (hc1 : ¬cond0_1 i) (x0 : Vec F S2048x256 .f32) (x1 : Vec F S1024x256 .f32) (x2 : Vec F S1x1024 .f32) (x3 : Vec F S1024x8 .f32) (x4 : Vec F S256x8 .f32) :
    out0_A_5 c i arg3 harg3 arg4 harg4 arg5 harg5 arg6 harg6 arg7 harg7 arg8 harg8 arg9 harg9 hc0 hc1 x0 x1 x2 x3 x4 = k0_pay4 x0 x1 (k0_pay1 (F := F)) := by
  unfold out0_A_5
  rw [View.read_writes_eq_canon _ _ _ (cover0_A_5 c i arg3 harg3 arg4 harg4 arg5 harg5 arg6 harg6 arg7 harg7 arg8 harg8 arg9 harg9 hc0 hc1 x0 x1 x2 x3 x4)]
  unfold kernelRun0_A
  dsimp only
  sl_unfold_words
  rw [View.canon_cons_unit_zero (S := S2048x1024) hz, View.readCov_unit_zero (S := S2048x1024) _ hz]
  simp only [View.readAt_eq_ld, harg3.read_unread, harg4.read_unread, harg5.read_unread, harg6.read_unread, harg7.read_unread, harg8.read_unread, harg9.read_unread,
    View.ld_unit_zero (S := S2048x256) hz, View.ld_unit_zero (S := S1024x256) hz, View.ld_unit_zero (S := S1x1024) hz, View.ld_unit_zero (S := S1024x8) hz,
    View.ld_unit_zero (S := S256x8) hz, View.ld_unit_zero (S := S2048x1024) hz, View.ld_unit_zero (S := S2048x8) hz]

/-- The first step: the thin block is reset to zero, read back, and receives the step's product. -/
theorem sout_A (c : Dev nD) (i : grid0.Coords) (arg3 : Memref sig .tc .vmem S2048x256 .f32) (harg3 : arg3.IsWhole) (arg4 : Memref sig .tc .vmem S1024x256 .f32) (harg4 : arg4.IsWhole) (arg5 : Memref sig .tc .vmem S1x1024 .f32) (harg5 : arg5.IsWhole) (arg6 : Memref sig .tc .vmem S1024x8 .f32) (harg6 : arg6.IsWhole) (arg7 : Memref sig .tc .vmem S256x8 .f32) (harg7 : arg7.IsWhole) (arg8 : Memref sig .tc .vmem S2048x1024 .f32) (harg8 : arg8.IsWhole) (arg9 : Memref sig .tc .vmem S2048x8 .f32) (harg9 : arg9.IsWhole) (hc0 : cond0_0 i) (hc1 : ¬cond0_1 i) (x0 : Vec F S2048x256 .f32) (x1 : Vec F S1024x256 .f32) (x2 : Vec F S1x1024 .f32) (x3 : Vec F S1024x8 .f32) (x4 : Vec F S256x8 .f32) :
    sout0_A_0 c i arg3 harg3 arg4 harg4 arg5 harg5 arg6 harg6 arg7 harg7 arg8 harg8 arg9 harg9 hc0 hc1 x0 x1 x2 x3 x4 = k0_pay5 x0 x4 (k0_pay2 (F := F)) := by
  unfold sout0_A_0
  rw [View.read_writes_eq_canon _ _ _ (scover0_A_0 c i arg3 harg3 arg4 harg4 arg5 harg5 arg6 harg6 arg7 harg7 arg8 harg8 arg9 harg9 hc0 hc1 x0 x1 x2 x3 x4)]
  unfold kernelRun0_A
  dsimp only
  sl_unfold_words
  rw [View.canon_cons_unit_zero (S := S2048x8) hz, View.readCov_unit_zero (S := S2048x8) _ hz]
  simp only [View.readAt_eq_ld, harg3.read_unread, harg4.read_unread, harg5.read_unread, harg6.read_unread, harg7.read_unread, harg8.read_unread, harg9.read_unread,
    View.ld_unit_zero (S := S2048x256) hz, View.ld_unit_zero (S := S1024x256) hz, View.ld_unit_zero (S := S1x1024) hz, View.ld_unit_zero (S := S1024x8) hz,
    View.ld_unit_zero (S := S256x8) hz, View.ld_unit_zero (S := S2048x1024) hz, View.ld_unit_zero (S := S2048x8) hz]

/-- The last step: after the two contributions the output block receives the correction and the bias, both computed
    from the blocks as this step has just updated them. -/
theorem out_C (c : Dev nD) (i : grid0.Coords) (arg3 : Memref sig .tc .vmem S2048x256 .f32) (harg3 : arg3.IsWhole) (arg4 : Memref sig .tc .vmem S1024x256 .f32) (harg4 : arg4.IsWhole) (arg5 : Memref sig .tc .vmem S1x1024 .f32) (harg5 : arg5.IsWhole) (arg6 : Memref sig .tc .vmem S1024x8 .f32) (harg6 : arg6.IsWhole) (arg7 : Memref sig .tc .vmem S256x8 .f32) (harg7 : arg7.IsWhole) (arg8 : Memref sig .tc .vmem S2048x1024 .f32) (harg8 : arg8.IsWhole) (arg9 : Memref sig .tc .vmem S2048x8 .f32) (harg9 : arg9.IsWhole) (hc0 : ¬cond0_0 i) (hc1 : cond0_1 i) (x0 : Vec F S2048x256 .f32) (x1 : Vec F S1024x256 .f32) (x2 : Vec F S1x1024 .f32) (x3 : Vec F S1024x8 .f32) (x4 : Vec F S256x8 .f32) (xo5 : Vec F S2048x1024 .f32) (xs0 : Vec F S2048x8 .f32) :
    out0_C_5 c i arg3 harg3 arg4 harg4 arg5 harg5 arg6 harg6 arg7 harg7 arg8 harg8 arg9 harg9 hc0 hc1 x0 x1 x2 x3 x4 xo5 xs0 = k0_pay6 x3 (k0_pay5 x0 x4 xs0) (k0_pay4 x0 x1 xo5) x2 := by
  unfold out0_C_5
  rw [View.read_writes_eq_canon _ _ _ (cover0_C_5 c i arg3 harg3 arg4 harg4 arg5 harg5 arg6 harg6 arg7 harg7 arg8 harg8 arg9 harg9 hc0 hc1 x0 x1 x2 x3 x4 xo5 xs0)]
  unfold kernelRun0_C
  dsimp only
  sl_unfold_words
  rw [View.canon_cons_unit_zero (S := S2048x1024) hz, View.readCov_unit_zero (S := S2048x1024) _ hz,
    View.readCov_unit_zero (S := S2048x8) _ hz]
  simp only [View.readAt_eq_ld, harg3.read_unread, harg4.read_unread, harg5.read_unread, harg6.read_unread, harg7.read_unread, harg8.read_unread, harg9.read_unread,
    View.ld_unit_zero (S := S2048x256) hz, View.ld_unit_zero (S := S1024x256) hz, View.ld_unit_zero (S := S1x1024) hz, View.ld_unit_zero (S := S1024x8) hz,
    View.ld_unit_zero (S := S256x8) hz, View.ld_unit_zero (S := S2048x1024) hz, View.ld_unit_zero (S := S2048x8) hz]

/-- The last step leaves the thin block as a middle step does. -/
theorem sout_C (c : Dev nD) (i : grid0.Coords) (arg3 : Memref sig .tc .vmem S2048x256 .f32) (harg3 : arg3.IsWhole) (arg4 : Memref sig .tc .vmem S1024x256 .f32) (harg4 : arg4.IsWhole) (arg5 : Memref sig .tc .vmem S1x1024 .f32) (harg5 : arg5.IsWhole) (arg6 : Memref sig .tc .vmem S1024x8 .f32) (harg6 : arg6.IsWhole) (arg7 : Memref sig .tc .vmem S256x8 .f32) (harg7 : arg7.IsWhole) (arg8 : Memref sig .tc .vmem S2048x1024 .f32) (harg8 : arg8.IsWhole) (arg9 : Memref sig .tc .vmem S2048x8 .f32) (harg9 : arg9.IsWhole) (hc0 : ¬cond0_0 i) (hc1 : cond0_1 i) (x0 : Vec F S2048x256 .f32) (x1 : Vec F S1024x256 .f32) (x2 : Vec F S1x1024 .f32) (x3 : Vec F S1024x8 .f32) (x4 : Vec F S256x8 .f32) (xo5 : Vec F S2048x1024 .f32) (xs0 : Vec F S2048x8 .f32) :
    sout0_C_0 c i arg3 harg3 arg4 harg4 arg5 harg5 arg6 harg6 arg7 harg7 arg8 harg8 arg9 harg9 hc0 hc1 x0 x1 x2 x3 x4 xo5 xs0 = k0_pay5 x0 x4 xs0 := by
  unfold sout0_C_0
  rw [View.read_writes_eq_canon _ _ _ (scover0_C_0 c i arg3 harg3 arg4 harg4 arg5 harg5 arg6 harg6 arg7 harg7 arg8 harg8 arg9 harg9 hc0 hc1 x0 x1 x2 x3 x4 xo5 xs0)]
  unfold kernelRun0_C
  dsimp only
  sl_unfold_words
  rw [View.canon_unit_zero hz]
  simp only [View.readAt_eq_ld, harg3.read_unread, harg4.read_unread, harg5.read_unread, harg6.read_unread, harg7.read_unread, harg8.read_unread, harg9.read_unread,
    View.ld_unit_zero (S := S2048x256) hz, View.ld_unit_zero (S := S1024x256) hz, View.ld_unit_zero (S := S1x1024) hz, View.ld_unit_zero (S := S1024x8) hz,
    View.ld_unit_zero (S := S256x8) hz, View.ld_unit_zero (S := S2048x1024) hz, View.ld_unit_zero (S := S2048x8) hz]

end Cert.KernelIdeal.Pieces

end
-- ==== Proof.LibMatmulRows.lean ====
/-
  A matrix product against the rows of the right factor, read at an entry.

  For the dimension numbers of a product with the right factor transposed — an [a, n] array times an [b, n] array,
  contracting the second axis of both, no batch axis (the einsum "qd,kd->qk") — the product accumulated onto the zero
  array is, on the extended reals, at (p, q) the sum over k of left (p, k) · right (q, k): the dot product of row p of
  the left factor with row q of the right one.  The extents are variables, so the reading does not change with a
  kernel's tiling.
-/
import Idealize.ShloMosaic.Lib.ValueIdx
import Idealize.ShloMosaic.PureOps.Ideal.Laws

noncomputable section

open scoped BigOperators

namespace Cert.MatmulRows

open Idealize.ShloMosaic Idealize.ShloMosaic.ValueIdx

/-- The dimension numbers of an [a, n] × [b, n]ᵀ product, over any witness of their well-formedness. -/
abbrev dims {a n b : ℕ}
    (wf : DotDims.WF ⟨2, ![a, n]⟩ ⟨2, ![b, n]⟩ ⟨2, ![a, b]⟩ [1] [1] [0] [0] [] []) :
    DotDims ⟨2, ![a, n]⟩ ⟨2, ![b, n]⟩ ⟨2, ![a, b]⟩ :=
  ⟨[1], [1], [0], [0], [], [], wf⟩

/-- A product against the right factor's rows, onto the zero array: at (p, q) the sum over k of
    left (p, k) · right (q, k). -/
theorem zero_acc_apply {a n b : ℕ} {φ₁ φ₂ : FTy}
    (wf : DotDims.WF ⟨2, ![a, n]⟩ ⟨2, ![b, n]⟩ ⟨2, ![a, b]⟩ [1] [1] [0] [0] [] [])
    (prec : Option ContractPrecision) (L : FVec Ideal ⟨2, ![a, n]⟩ φ₁) (R : FVec Ideal ⟨2, ![b, n]⟩ φ₂)
    (p : Fin a) (q : Fin b) :
    FloatOps.matmul (dims wf) prec L R (constant ⟨2, ![a, b]⟩ .f32 0x00000000#32) (ix2 p q)
      = ∑ k : Fin n, L (ix2 p k) * R (ix2 q k) := by
  rw [Ideal.matmul_constant_zero_apply, ← Equiv.sum_comp (contrEquiv1 (dims wf) n rfl rfl).symm]
  refine Finset.sum_congr rfl fun k _ => ?_
  have hk := contrEquiv1_symm_val (dims wf) n rfl rfl k
  have el : (dims wf).lhsIdx (ix2 p q) ((contrEquiv1 (dims wf) n rfl rfl).symm k) = ix2 p k :=
    funext fun ax => Fin.ext (by
      match ax with
      | ⟨0, _⟩ => rfl
      | ⟨1, _⟩ => exact ((dims wf).lhsIdx_val_of_single rfl _ _).trans hk)
  have er : (dims wf).rhsIdx (ix2 p q) ((contrEquiv1 (dims wf) n rfl rfl).symm k) = ix2 q k :=
    funext fun ax => Fin.ext (by
      match ax with
      | ⟨0, _⟩ => rfl
      | ⟨1, _⟩ => exact ((dims wf).rhsIdx_val_of_single rfl _ _).trans hk)
  rw [el, er]

end Cert.MatmulRows

end
-- ==== Proof.LibPlainMatmul.lean ====
/-
  A plain matrix product read at an entry.

  For the dimension numbers of an ordinary product — an [a, n] array times an [n, b] array, contracting the second
  axis of the left with the first axis of the right, no batch axis — the product accumulated onto the zero array is, on
  the extended reals, at (p, q) the sum over k of left (p, k) · right (k, q).  The extents are variables, so the
  reading does not change with a kernel's tiling.
-/
import Idealize.ShloMosaic.Lib.ValueIdx
import Idealize.ShloMosaic.PureOps.Ideal.Laws

noncomputable section

open scoped BigOperators

namespace Cert.PlainMatmul

open Idealize.ShloMosaic Idealize.ShloMosaic.ValueIdx

/-- The dimension numbers of an ordinary [a, n] × [n, b] product, over any witness of their well-formedness. -/
abbrev dims {a n b : ℕ}
    (wf : DotDims.WF ⟨2, ![a, n]⟩ ⟨2, ![n, b]⟩ ⟨2, ![a, b]⟩ [1] [0] [0] [1] [] []) :
    DotDims ⟨2, ![a, n]⟩ ⟨2, ![n, b]⟩ ⟨2, ![a, b]⟩ :=
  ⟨[1], [0], [0], [1], [], [], wf⟩

/-- An ordinary product onto the zero array: at (p, q) the sum over k of left (p, k) · right (k, q). -/
theorem zero_acc_apply {a n b : ℕ} {φ₁ φ₂ : FTy}
    (wf : DotDims.WF ⟨2, ![a, n]⟩ ⟨2, ![n, b]⟩ ⟨2, ![a, b]⟩ [1] [0] [0] [1] [] [])
    (prec : Option ContractPrecision) (L : FVec Ideal ⟨2, ![a, n]⟩ φ₁) (R : FVec Ideal ⟨2, ![n, b]⟩ φ₂)
    (p : Fin a) (q : Fin b) :
    FloatOps.matmul (dims wf) prec L R (constant ⟨2, ![a, b]⟩ .f32 0x00000000#32) (ix2 p q)
      = ∑ k : Fin n, L (ix2 p k) * R (ix2 k q) := by
  rw [Ideal.matmul_constant_zero_apply, ← Equiv.sum_comp (contrEquiv1 (dims wf) n rfl rfl).symm]
  refine Finset.sum_congr rfl fun k _ => ?_
  have hk := contrEquiv1_symm_val (dims wf) n rfl rfl k
  have el : (dims wf).lhsIdx (ix2 p q) ((contrEquiv1 (dims wf) n rfl rfl).symm k) = ix2 p k :=
    funext fun ax => Fin.ext (by
      match ax with
      | ⟨0, _⟩ => rfl
      | ⟨1, _⟩ => exact ((dims wf).lhsIdx_val_of_single rfl _ _).trans hk)
  have er : (dims wf).rhsIdx (ix2 p q) ((contrEquiv1 (dims wf) n rfl rfl).symm k) = ix2 k q :=
    funext fun ax => Fin.ext (by
      match ax with
      | ⟨0, _⟩ => exact ((dims wf).rhsIdx_val_of_single rfl _ _).trans hk
      | ⟨1, _⟩ => rfl)
  rw [el, er]

end Cert.PlainMatmul

end
-- ==== Proof.Payloads.lean ====
/-
  The body's arithmetic, entry by entry, on the extended reals.

  On the extended reals a change of float format is the identity and a matrix product onto the zero block is a plain
  finite sum, so each value the body stores is, at row p and column q of its block:
    * the output block's update: what the block held, plus the dot product of row p of the x block with row q of the
      W block (256 terms);
    * the thin block's update: what it held, plus the dot product of row p of the x block with column r of the B block;
    * the last step's extra term: the dot product of row p of the thin block with row q of the A block (8 terms), times
      the scale, plus entry q of the bias row;
    * the two reset values: zero.
-/
import proofs.«137652_j60919816126704_2_alg».proof.Proof.Gen.KernelIdeal.Skeleton
import proofs.«137652_j60919816126704_2_alg».proof.Proof.LibMatmulRows
import proofs.«137652_j60919816126704_2_alg».proof.Proof.LibPlainMatmul
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.ValueIdx

namespace Cert.KernelIdeal.Payloads

open Cert.KernelIdeal Cert.KernelIdeal.Gen

/-- The output block is reset to zero. -/
theorem reset_out_apply (j : S2048x1024.Idx) : k0_pay1 (F := Ideal) j = 0 := by
  show Ideal.ofBits .f32 0x00000000#32 = 0
  exact Ideal.ofBits_zero_f32

/-- The thin block is reset to zero. -/
theorem reset_thin_apply (j : S2048x8.Idx) : k0_pay2 (F := Ideal) j = 0 := by
  unfold k0_pay2
  simp only [shapeCast_self]
  show Ideal.ofBits .f32 0x00000000#32 = 0
  exact Ideal.ofBits_zero_f32

/-- One step's update of the output block at (p, q): the old entry plus row p of the x block against row q of the W
    block. -/
theorem out_step_apply (x0 : Vec Ideal S2048x256 .f32) (x1 : Vec Ideal S1024x256 .f32) (xo : Vec Ideal S2048x1024 .f32)
    (p : Fin 2048) (q : Fin 1024) :
    k0_pay4 (F := Ideal) x0 x1 xo (ix2 p q) = xo (ix2 p q) + ∑ d : Fin 256, x0 (ix2 p d) * x1 (ix2 q d) := by
  have hm := Cert.MatmulRows.zero_acc_apply (φ₁ := .bf16) (φ₂ := .bf16)
    Facts₀.dot_S2048x256_S1024x256_S2048x1024_1_1_0_0_n_n_wf none
    (truncf .bf16 x0 Facts₀.bitsLt_bf16_f32) (truncf .bf16 x1 Facts₀.bitsLt_bf16_f32) p q
  unfold k0_pay4 k0_pay3
  simp only [shapeCast_self]
  exact congrArg (xo (ix2 p q) + ·) hm

/-- One step's update of the thin block at (p, r): the old entry plus row p of the x block against column r of the B
    block. -/
theorem thin_step_apply (x0 : Vec Ideal S2048x256 .f32) (x4 : Vec Ideal S256x8 .f32) (xs : Vec Ideal S2048x8 .f32)
    (p : Fin 2048) (r : Fin 8) :
    k0_pay5 (F := Ideal) x0 x4 xs (ix2 p r) = xs (ix2 p r) + ∑ d : Fin 256, x0 (ix2 p d) * x4 (ix2 d r) := by
  have hm := Cert.PlainMatmul.zero_acc_apply (φ₁ := .bf16) (φ₂ := .bf16)
    Facts₀.dot_S2048x256_S256x8_S2048x8_1_0_0_1_n_n_wf none
    (truncf .bf16 x0 Facts₀.bitsLt_bf16_f32) (truncf .bf16 x4 Facts₀.bitsLt_bf16_f32) p r
  unfold k0_pay5 k0_pay3
  simp only [shapeCast_self]
  exact congrArg (xs (ix2 p r) + ·) hm

/-- The last step's closing update at (p, q): the entry, plus (row p of the thin block against row q of the A block,
    scaled) plus entry q of the bias row. -/
theorem close_apply (x3 : Vec Ideal S1024x8 .f32) (s : Vec Ideal S2048x8 .f32) (o : Vec Ideal S2048x1024 .f32)
    (x2 : Vec Ideal S1x1024 .f32) (p : Fin 2048) (q : Fin 1024) :
    k0_pay6 (F := Ideal) x3 s o x2 (ix2 p q)
      = o (ix2 p q) + ((∑ r : Fin 8, s (ix2 p r) * x3 (ix2 q r)) * Ideal.ofBits .f32 0x40000000#32
          + x2 (ix2 (0 : Fin 1) q)) := by
  have hm := Cert.MatmulRows.zero_acc_apply (φ₁ := .bf16) (φ₂ := .bf16)
    Facts₀.dot_S2048x8_S1024x8_S2048x1024_1_1_0_0_n_n_wf none
    (truncf .bf16 s Facts₀.bitsLt_bf16_f32) (truncf .bf16 x3 Facts₀.bitsLt_bf16_f32) p q
  have hb := broadcastTo_1b_ab_apply (a := 2048) (b := 1024) x2 Facts₀.broadcasts_S1x1024_S2048x1024 p q
  unfold k0_pay6
  simp only [shapeCast_self]
  exact congrArg₂ (fun u v => o (ix2 p q) + (u * Ideal.ofBits .f32 0x40000000#32 + v)) hm hb

end Cert.KernelIdeal.Payloads

end
-- ==== Proof.Accum.lean ====
/-
  Dot products built one tile of 256 at a time.

  The contraction axis of length 4096 is walked in sixteen tiles of 256.  Arrays are read here at natural-number
  coordinates (zero outside the array), so that a row 2048 i + p or a column 256 k + d can be written without carrying
  its bound around.  The running dot product over the first `cnt` tiles is a sum over the first 256 cnt positions; adding the
  next tile's 256 products gives the sum over the first 256 (cnt + 1) positions, and after sixteen tiles the sum runs
  over the whole axis.  Sums here are sums in the extended reals, where addition is commutative and associative, so
  the order in which the tiles arrive does not matter.
-/
import Idealize.ShloMosaic.Lib.ValueIdx
import Idealize.ShloMosaic.PureOps.Ideal

noncomputable section

open scoped BigOperators

namespace Cert.LowRankLinear

open Idealize.ShloMosaic Idealize.ShloMosaic.ValueIdx

/-- A two-axis array read at natural-number coordinates: zero outside the array. -/
def at2 {a b : ℕ} (f : (⟨2, ![a, b]⟩ : Shape).Idx → EReal) (r e : ℕ) : EReal :=
  if h : r < a ∧ e < b then f (ix2 ⟨r, h.1⟩ ⟨e, h.2⟩) else 0

theorem at2_of_lt {a b : ℕ} (f : (⟨2, ![a, b]⟩ : Shape).Idx → EReal) {r e : ℕ} (h1 : r < a) (h2 : e < b) :
    at2 f r e = f (ix2 ⟨r, h1⟩ ⟨e, h2⟩) := dif_pos ⟨h1, h2⟩

/-- A sum over the first 256 (k + 1) positions is the sum over the first 256 k positions plus the next tile. -/
theorem sum_next_tile {M : Type*} [AddCommMonoid M] (f : ℕ → M) (k : ℕ) :
    ∑ e ∈ Finset.range (256 * (k + 1)), f e
      = ∑ e ∈ Finset.range (256 * k), f e + ∑ d : Fin 256, f (256 * k + d.val) := by
  rw [show 256 * (k + 1) = 256 * k + 256 by ring, Finset.sum_range_add]
  exact congrArg (_ + ·) (Finset.sum_range fun x => f (256 * k + x))

/-- Row M of X against row N of W over the first `cnt` tiles of the contraction axis. -/
def rowsDot {a b n : ℕ} (X : (⟨2, ![a, n]⟩ : Shape).Idx → EReal) (W : (⟨2, ![b, n]⟩ : Shape).Idx → EReal)
    (M N cnt : ℕ) : EReal :=
  ∑ e ∈ Finset.range (256 * cnt), at2 X M e * at2 W N e

/-- Row M of X against column r of B over the first `cnt` tiles of the contraction axis. -/
def colDot {a n c : ℕ} (X : (⟨2, ![a, n]⟩ : Shape).Idx → EReal) (B : (⟨2, ![n, c]⟩ : Shape).Idx → EReal)
    (M cnt r : ℕ) : EReal :=
  ∑ e ∈ Finset.range (256 * cnt), at2 X M e * at2 B e r

theorem rowsDot_zero {a b n : ℕ} (X : (⟨2, ![a, n]⟩ : Shape).Idx → EReal) (W : (⟨2, ![b, n]⟩ : Shape).Idx → EReal)
    (M N : ℕ) : rowsDot X W M N 0 = 0 := by
  unfold rowsDot; rw [Nat.mul_zero, Finset.range_zero, Finset.sum_empty]

theorem colDot_zero {a n c : ℕ} (X : (⟨2, ![a, n]⟩ : Shape).Idx → EReal) (B : (⟨2, ![n, c]⟩ : Shape).Idx → EReal)
    (M r : ℕ) : colDot X B M 0 r = 0 := by
  unfold colDot; rw [Nat.mul_zero, Finset.range_zero, Finset.sum_empty]

theorem rowsDot_succ {a b n : ℕ} (X : (⟨2, ![a, n]⟩ : Shape).Idx → EReal) (W : (⟨2, ![b, n]⟩ : Shape).Idx → EReal)
    (M N k : ℕ) :
    rowsDot X W M N (k + 1) = rowsDot X W M N k + ∑ d : Fin 256, at2 X M (256 * k + d.val) * at2 W N (256 * k + d.val) :=
  sum_next_tile _ k

theorem colDot_succ {a n c : ℕ} (X : (⟨2, ![a, n]⟩ : Shape).Idx → EReal) (B : (⟨2, ![n, c]⟩ : Shape).Idx → EReal)
    (M k r : ℕ) :
    colDot X B M (k + 1) r = colDot X B M k r + ∑ d : Fin 256, at2 X M (256 * k + d.val) * at2 B (256 * k + d.val) r :=
  sum_next_tile _ k

/-- After all sixteen tiles the running dot product of two rows is the dot product over the whole axis. -/
theorem rowsDot_full {a b : ℕ} (X : (⟨2, ![a, 4096]⟩ : Shape).Idx → EReal) (W : (⟨2, ![b, 4096]⟩ : Shape).Idx → EReal)
    (M : Fin a) (N : Fin b) :
    rowsDot X W M.val N.val 16 = ∑ k : Fin 4096, X (ix2 M k) * W (ix2 N k) := by
  unfold rowsDot
  rw [show 256 * 16 = 4096 by norm_num, Finset.sum_range]
  exact Finset.sum_congr rfl fun k _ => by rw [at2_of_lt X M.isLt k.isLt, at2_of_lt W N.isLt k.isLt]

/-- The same for a row against a column. -/
theorem colDot_full {a c : ℕ} (X : (⟨2, ![a, 4096]⟩ : Shape).Idx → EReal) (B : (⟨2, ![4096, c]⟩ : Shape).Idx → EReal)
    (M : Fin a) (r : Fin c) :
    colDot X B M.val 16 r.val = ∑ k : Fin 4096, X (ix2 M k) * B (ix2 k r) := by
  unfold colDot
  rw [show 256 * 16 = 4096 by norm_num, Finset.sum_range]
  exact Finset.sum_congr rfl fun k _ => by rw [at2_of_lt X M.isLt k.isLt, at2_of_lt B k.isLt r.isLt]

end Cert.LowRankLinear

end
-- ==== Proof.Steps.lean ====
/-
  One step of the body in terms of the whole arrays.

  If the blocks a step loads are the tiles of the whole arrays that the step's position says — rows Mb + p of x and
  Nb + q of W, columns 256 k + d of the contraction axis — and the running blocks hold the dot products over the first
  k tiles, then after the step they hold the dot products over the first k + 1 tiles.  The closing update of the last
  step adds, to whatever the output block holds, the thin block against rows Nb + q of A, scaled, plus the bias.
-/
import proofs.«137652_j60919816126704_2_alg».proof.Proof.Payloads
import proofs.«137652_j60919816126704_2_alg».proof.Proof.Accum

noncomputable section

open scoped BigOperators
open Idealize.ShloMosaic Idealize.ShloMosaic.ValueIdx

namespace Cert.KernelIdeal.Steps

open Cert.KernelIdeal Cert.KernelIdeal.Gen Cert.LowRankLinear

/-- The output block after a step: the dot products of rows Mb + p of x with rows Nb + q of W over one more tile. -/
theorem out_step (X : (⟨2, ![8192, 4096]⟩ : Shape).Idx → EReal) (W : (⟨2, ![4096, 4096]⟩ : Shape).Idx → EReal)
    (x0 : Vec Ideal S2048x256 .f32) (x1 : Vec Ideal S1024x256 .f32) (xo : Vec Ideal S2048x1024 .f32) (Mb Nb k : ℕ)
    (hx0 : ∀ (p : Fin 2048) (d : Fin 256), x0 (ix2 p d) = at2 X (Mb + p.val) (256 * k + d.val))
    (hx1 : ∀ (q : Fin 1024) (d : Fin 256), x1 (ix2 q d) = at2 W (Nb + q.val) (256 * k + d.val))
    (hxo : ∀ (p : Fin 2048) (q : Fin 1024), xo (ix2 p q) = rowsDot X W (Mb + p.val) (Nb + q.val) k)
    (p : Fin 2048) (q : Fin 1024) :
    k0_pay4 (F := Ideal) x0 x1 xo (ix2 p q) = rowsDot X W (Mb + p.val) (Nb + q.val) (k + 1) := by
  rw [Payloads.out_step_apply, rowsDot_succ, hxo]
  exact congrArg (_ + ·) (Finset.sum_congr rfl fun d _ => by rw [hx0, hx1])

/-- The thin block after a step: the dot products of rows Mb + p of x with the columns of B over one more tile. -/
theorem thin_step (X : (⟨2, ![8192, 4096]⟩ : Shape).Idx → EReal) (B : (⟨2, ![4096, 8]⟩ : Shape).Idx → EReal)
    (x0 : Vec Ideal S2048x256 .f32) (x4 : Vec Ideal S256x8 .f32) (xs : Vec Ideal S2048x8 .f32) (Mb k : ℕ)
    (hx0 : ∀ (p : Fin 2048) (d : Fin 256), x0 (ix2 p d) = at2 X (Mb + p.val) (256 * k + d.val))
    (hx4 : ∀ (d : Fin 256) (r : Fin 8), x4 (ix2 d r) = at2 B (256 * k + d.val) r.val)
    (hxs : ∀ (p : Fin 2048) (r : Fin 8), xs (ix2 p r) = colDot X B (Mb + p.val) k r.val)
    (p : Fin 2048) (r : Fin 8) :
    k0_pay5 (F := Ideal) x0 x4 xs (ix2 p r) = colDot X B (Mb + p.val) (k + 1) r.val := by
  rw [Payloads.thin_step_apply, colDot_succ, hxs]
  exact congrArg (_ + ·) (Finset.sum_congr rfl fun d _ => by rw [hx0, hx4])

/-- The closing update: the output entry plus (the thin row against row Nb + q of A, scaled) plus the bias at Nb + q. -/
theorem close_step (A : (⟨2, ![4096, 8]⟩ : Shape).Idx → EReal) (b2 : (⟨2, ![1, 4096]⟩ : Shape).Idx → EReal)
    (x3 : Vec Ideal S1024x8 .f32) (s : Vec Ideal S2048x8 .f32) (o : Vec Ideal S2048x1024 .f32)
    (x2 : Vec Ideal S1x1024 .f32) (Nb : ℕ)
    (hx3 : ∀ (q : Fin 1024) (r : Fin 8), x3 (ix2 q r) = at2 A (Nb + q.val) r.val)
    (hx2 : ∀ q : Fin 1024, x2 (ix2 (0 : Fin 1) q) = at2 b2 0 (Nb + q.val))
    (p : Fin 2048) (q : Fin 1024) :
    k0_pay6 (F := Ideal) x3 s o x2 (ix2 p q)
      = o (ix2 p q) + ((∑ r : Fin 8, s (ix2 p r) * at2 A (Nb + q.val) r.val) * Ideal.ofBits .f32 0x40000000#32
          + at2 b2 0 (Nb + q.val)) := by
  rw [Payloads.close_apply, hx2]
  exact congrArg (fun u => o (ix2 p q) + (u * Ideal.ofBits .f32 0x40000000#32 + at2 b2 0 (Nb + q.val)))
    (Finset.sum_congr rfl fun r _ => by rw [hx3])

end Cert.KernelIdeal.Steps

end
-- ==== Proof.Blocks.lean ====
/-
  The tiles the body loads, as entries of the whole arrays.

  The grid has 4 x 4 x 16 points; point t has row-tile t / 64, column-tile (t / 16) mod 4 and contraction step t mod 16.
  At point t the x block is rows 2048 (t / 64) + p and columns 256 (t mod 16) + d of the flattened x; the W block is rows
  1024 ((t / 16) mod 4) + q and the same columns of W; the B block is rows 256 (t mod 16) + d of B; the A block is rows
  1024 ((t / 16) mod 4) + q of A; the bias block is columns 1024 ((t / 16) mod 4) + q of the bias row.
-/
import proofs.«137652_j60919816126704_2_alg».proof.Proof.Gen.KernelIdeal.Frame
import proofs.«137652_j60919816126704_2_alg».proof.Proof.Accum
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen Cert.LowRankLinear

variable (m : (ℓ : Loc nD τ sig) → Buf (Elt Ideal) ℓ) (c : Dev nD)

/-- The block each window is on at point t, from t's three grid coordinates (decided over the 256 points). -/
theorem idx_facts : ∀ t : Fin cfg0.N,
    win0_0.index t (0 : Fin 2) = t.val / 64 ∧ win0_0.index t (1 : Fin 2) = t.val % 16
    ∧ win0_1.index t (0 : Fin 2) = t.val / 16 % 4 ∧ win0_1.index t (1 : Fin 2) = t.val % 16
    ∧ win0_2.index t (0 : Fin 2) = 0 ∧ win0_2.index t (1 : Fin 2) = t.val / 16 % 4
    ∧ win0_3.index t (0 : Fin 2) = t.val / 16 % 4 ∧ win0_3.index t (1 : Fin 2) = 0
    ∧ win0_4.index t (0 : Fin 2) = t.val % 16 ∧ win0_4.index t (1 : Fin 2) = 0
    ∧ win0_5.index t (0 : Fin 2) = t.val / 64 ∧ win0_5.index t (1 : Fin 2) = t.val / 16 % 4 :=
  (by decide +kernel : ∀ t : Fin grid0.N, _)

/-- The x block at point t. -/
theorem x_block (t : Fin cfg0.N) (p : Fin 2048) (d : Fin 256) :
    iblk m c 0 t (ix2 p d)
      = at2 (V m c main_v0 : S8192x4096.Idx → EReal) (2048 * (t.val / 64) + p.val) (256 * (t.val % 16) + d.val) := by
  have hN : t.val < 256 := lt_of_lt_of_eq t.isLt N_0
  obtain ⟨e0, e1, -⟩ := idx_facts t
  rw [at2_of_lt _ (by omega) (by omega)]
  unfold iblk
  rw [View.read_apply]
  show V m c main_v0 (((cfg0.win 0).blk t).view.emb (ix2 p d)) = _
  refine congrArg (V m c main_v0) (funext fun a => Fin.ext ?_)
  match a with
  | ⟨0, _⟩ => show win0_0.index t (0 : Fin 2) * 2048 + 1 * p.val = 2048 * (t.val / 64) + p.val; omega
  | ⟨1, _⟩ => show win0_0.index t (1 : Fin 2) * 256 + 1 * d.val = 256 * (t.val % 16) + d.val; omega

/-- The W block at point t. -/
theorem w_block (t : Fin cfg0.N) (q : Fin 1024) (d : Fin 256) :
    iblk m c 1 t (ix2 q d)
      = at2 (V m c main_arg1 : S4096x4096.Idx → EReal) (1024 * (t.val / 16 % 4) + q.val) (256 * (t.val % 16) + d.val) := by
  have hN : t.val < 256 := lt_of_lt_of_eq t.isLt N_0
  obtain ⟨-, -, e0, e1, -⟩ := idx_facts t
  rw [at2_of_lt _ (by omega) (by omega)]
  unfold iblk
  rw [View.read_apply]
  show V m c main_arg1 (((cfg0.win 1).blk t).view.emb (ix2 q d)) = _
  refine congrArg (V m c main_arg1) (funext fun a => Fin.ext ?_)
  match a with
  | ⟨0, _⟩ => show win0_1.index t (0 : Fin 2) * 1024 + 1 * q.val = 1024 * (t.val / 16 % 4) + q.val; omega
  | ⟨1, _⟩ => show win0_1.index t (1 : Fin 2) * 256 + 1 * d.val = 256 * (t.val % 16) + d.val; omega

/-- The bias block at point t. -/
theorem bias_block (t : Fin cfg0.N) (q : Fin 1024) :
    iblk m c 2 t (ix2 (0 : Fin 1) q)
      = at2 (V m c main_v1 : S1x4096.Idx → EReal) 0 (1024 * (t.val / 16 % 4) + q.val) := by
  have hN : t.val < 256 := lt_of_lt_of_eq t.isLt N_0
  obtain ⟨-, -, -, -, e0, e1, -⟩ := idx_facts t
  rw [at2_of_lt _ (by omega) (by omega)]
  unfold iblk
  rw [View.read_apply]
  show V m c main_v1 (((cfg0.win 2).blk t).view.emb (ix2 (0 : Fin 1) q)) = _
  refine congrArg (V m c main_v1) (funext fun a => Fin.ext ?_)
  match a with
  | ⟨0, _⟩ => show win0_2.index t (0 : Fin 2) * 1 + 1 * 0 = 0; omega
  | ⟨1, _⟩ => show win0_2.index t (1 : Fin 2) * 1024 + 1 * q.val = 1024 * (t.val / 16 % 4) + q.val; omega

/-- The A block at point t. -/
theorem a_block (t : Fin cfg0.N) (q : Fin 1024) (r : Fin 8) :
    iblk m c 3 t (ix2 q r)
      = at2 (V m c main_arg3 : S4096x8.Idx → EReal) (1024 * (t.val / 16 % 4) + q.val) r.val := by
  have hN : t.val < 256 := lt_of_lt_of_eq t.isLt N_0
  obtain ⟨-, -, -, -, -, -, e0, e1, -⟩ := idx_facts t
  rw [at2_of_lt _ (by omega) r.isLt]
  unfold iblk
  rw [View.read_apply]
  show V m c main_arg3 (((cfg0.win 3).blk t).view.emb (ix2 q r)) = _
  refine congrArg (V m c main_arg3) (funext fun a => Fin.ext ?_)
  match a with
  | ⟨0, _⟩ => show win0_3.index t (0 : Fin 2) * 1024 + 1 * q.val = 1024 * (t.val / 16 % 4) + q.val; omega
  | ⟨1, _⟩ => show win0_3.index t (1 : Fin 2) * 8 + 1 * r.val = r.val; omega

/-- The B block at point t. -/
theorem b_block (t : Fin cfg0.N) (d : Fin 256) (r : Fin 8) :
    iblk m c 4 t (ix2 d r)
      = at2 (V m c main_arg4 : S4096x8.Idx → EReal) (256 * (t.val % 16) + d.val) r.val := by
  have hN : t.val < 256 := lt_of_lt_of_eq t.isLt N_0
  obtain ⟨-, -, -, -, -, -, -, -, e0, e1, -⟩ := idx_facts t
  rw [at2_of_lt _ (by omega) r.isLt]
  unfold iblk
  rw [View.read_apply]
  show V m c main_arg4 (((cfg0.win 4).blk t).view.emb (ix2 d r)) = _
  refine congrArg (V m c main_arg4) (funext fun a => Fin.ext ?_)
  match a with
  | ⟨0, _⟩ => show win0_4.index t (0 : Fin 2) * 256 + 1 * d.val = 256 * (t.val % 16) + d.val; omega
  | ⟨1, _⟩ => show win0_4.index t (1 : Fin 2) * 8 + 1 * r.val = r.val; omega

end Cert.KernelIdeal.Blocks

end
-- ==== Proof.Flat.lean ====
/-
  The layer's result on the flattened rows.

  With the two leading axes of x merged into one axis of 8192 rows and the bias kept as a single row, the layer with the
  thin axis contracted last is, at row M and column N: row M of x against row N of W over all sixteen tiles, plus
  (the thin row of M against row N of A, scaled) plus the bias at N.
-/
import proofs.«137652_j60919816126704_2_alg».proof.Proof.Spec
import proofs.«137652_j60919816126704_2_alg».proof.Proof.Accum

noncomputable section

open scoped BigOperators

namespace Cert.LowRankLinear

open Idealize.ShloMosaic Idealize.ShloMosaic.ValueIdx

/-- The shapes of the flattened x (and of the flattened result) and of the bias row. -/
abbrev SXflat : Shape := ⟨2, ![8192, 4096]⟩
abbrev Sbrow : Shape := ⟨2, ![1, 4096]⟩

/-- The layer's value at natural-number row M and column N of the flattened result. -/
def flatEntry (X2 : SXflat.Idx → EReal) (W : SW.Idx → EReal) (b2 : Sbrow.Idx → EReal) (A B : ST.Idx → EReal)
    (M N : ℕ) : EReal :=
  rowsDot X2 W M N 16 + ((∑ r : Fin 8, colDot X2 B M 16 r.val * at2 A N r.val) * scale + at2 b2 0 N)

/-- The flattened result as an array. -/
def flatResult (X2 : SXflat.Idx → EReal) (W : SW.Idx → EReal) (b2 : Sbrow.Idx → EReal) (A B : ST.Idx → EReal) :
    SXflat.Idx → EReal :=
  fun j => flatEntry X2 W b2 A B (j 0).val (j 1).val

end Cert.LowRankLinear

end
-- ==== Proof.Running.lean ====
/-
  What the two running blocks hold after each grid point.

  Point t belongs to row-tile t / 64, column-tile (t / 16) mod 4, and is step t mod 16 of the contraction axis.  After
  it the thin block holds, at (p, r), row 2048 (t / 64) + p of the flattened x against column r of B over the first
  (t mod 16) + 1 tiles; the output block holds, at (p, q), that row against row 1024 ((t / 16) mod 4) + q of W over the
  same tiles — except after a last step (t mod 16 = 15), when it holds the finished entry: the full dot product plus the
  scaled correction plus the bias.  The proof walks the points in order: a first step starts from zero, a later step
  from what the point before left, and the point before is in the same row- and column-tile, one step earlier.
-/
import proofs.«137652_j60919816126704_2_alg».proof.Proof.Pieces
import proofs.«137652_j60919816126704_2_alg».proof.Proof.Steps
import proofs.«137652_j60919816126704_2_alg».proof.Proof.Blocks
import proofs.«137652_j60919816126704_2_alg».proof.Proof.Flat

noncomputable section

open scoped BigOperators
open Idealize.ShloMosaic Idealize.ShloMosaic.TcCoe Idealize.SL.Sem Idealize.ShloMosaic.ValueIdx
open Idealize.ShloMosaic.Pipeline (Dat)

namespace Cert.KernelIdeal.Running

open Cert.KernelIdeal Cert.KernelIdeal.Gen Cert.LowRankLinear

variable (m : (ℓ : Loc nD τ sig) → Buf (Elt Ideal) ℓ) (c : Dev nD)

/-- The arrays as the kernel finds them: the flattened x, W, the bias row, A and B. -/
local notation "Xf" => (V m c main_v0 : S8192x4096.Idx → EReal)
local notation "Wa" => (V m c main_arg1 : S4096x4096.Idx → EReal)
local notation "br" => (V m c main_v1 : S1x4096.Idx → EReal)
local notation "Aa" => (V m c main_arg3 : S4096x8.Idx → EReal)
local notation "Ba" => (V m c main_arg4 : S4096x8.Idx → EReal)

/-- What the thin block and (before a last step) the output block hold after point n. -/
def Holds (n : ℕ) (h : n < cfg0.N) : Prop :=
  (∀ (p : Fin 2048) (r : Fin 8), (outsAt0 m c n h).2 (ix2 p r)
      = colDot Xf Ba (2048 * (n / 64) + p.val) (n % 16 + 1) r.val)
  ∧ (n % 16 ≠ 15 → ∀ (p : Fin 2048) (q : Fin 1024), (outsAt0 m c n h).1 (ix2 p q)
      = rowsDot Xf Wa (2048 * (n / 64) + p.val) (1024 * (n / 16 % 4) + q.val) (n % 16 + 1))

/-- A first step (t mod 16 = 0): both blocks start from zero and receive the first tile. -/
theorem holds_first (t : Fin cfg0.N) (h0 : t.val % 16 = 0) : Holds m c t.val t.isLt := by
  have h1 : ¬t.val % 16 = 15 := by omega
  have e := outsAt0_A m c t h0 h1
  have hpO := Pieces.out_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t) (iblk m c 2 t) (iblk m c 3 t) (iblk m c 4 t)
  have hpS := Pieces.sout_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t) (iblk m c 2 t) (iblk m c 3 t) (iblk m c 4 t)
  have eO : (outsAt0 m c t.val t.isLt).1 = k0_pay4 (F := Ideal) (iblk m c 0 t) (iblk m c 1 t) (k0_pay1 (F := Ideal)) := by
    rw [e]; dsimp only; exact hpO
  have eS : (outsAt0 m c t.val t.isLt).2 = k0_pay5 (F := Ideal) (iblk m c 0 t) (iblk m c 4 t) (k0_pay2 (F := Ideal)) := by
    rw [e]; dsimp only; exact hpS
  refine ⟨fun p r => ?_, fun _ p q => ?_⟩
  · refine (congrFun eS _).trans ?_
    exact Steps.thin_step Xf Ba (iblk m c 0 t) (iblk m c 4 t) (k0_pay2 (F := Ideal)) (2048 * (t.val / 64)) (t.val % 16)
      (fun p d => Blocks.x_block m c t p d) (fun d r => Blocks.b_block m c t d r)
      (fun p r => by rw [Payloads.reset_thin_apply, h0, colDot_zero]) p r
  · refine (congrFun eO _).trans ?_
    exact Steps.out_step Xf Wa (iblk m c 0 t) (iblk m c 1 t) (k0_pay1 (F := Ideal)) (2048 * (t.val / 64))
      (1024 * (t.val / 16 % 4)) (t.val % 16)
      (fun p d => Blocks.x_block m c t p d) (fun q d => Blocks.w_block m c t q d)
      (fun p q => by rw [Payloads.reset_out_apply, h0, rowsDot_zero]) p q

/-- A middle step: each block receives one more tile on top of what the point before left. -/
theorem holds_mid (t : Fin cfg0.N) (h0 : ¬t.val % 16 = 0) (h1 : ¬t.val % 16 = 15)
    (ih : Holds m c (t.val - 1) (Nat.lt_of_le_of_lt (Nat.sub_le _ _) t.isLt)) : Holds m c t.val t.isLt := by
  have a1 : (t.val - 1) / 64 = t.val / 64 := by omega
  have a2 : (t.val - 1) / 16 % 4 = t.val / 16 % 4 := by omega
  have a3 : (t.val - 1) % 16 + 1 = t.val % 16 := by omega
  obtain ⟨ihS, ihO⟩ := ih
  have ihO' := ihO (by omega)
  rw [a1, a3] at ihS
  rw [a1, a2, a3] at ihO'
  have e := outsAt0_B m c t h0 h1
  have hpO := Pieces.out_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).1 (outsAt0 m c (t.val - 1) (Nat.lt_of_le_of_lt (Nat.sub_le _ _) t.isLt)).2
  have hpS := Pieces.sout_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).1 (outsAt0 m c (t.val - 1) (Nat.lt_of_le_of_lt (Nat.sub_le _ _) t.isLt)).2
  have eO : (outsAt0 m c t.val t.isLt).1 = k0_pay4 (F := Ideal) (iblk m c 0 t) (iblk m c 1 t) (outsAt0 m c (t.val - 1) (Nat.lt_of_le_of_lt (Nat.sub_le _ _) t.isLt)).1 := by
    rw [e]; dsimp only; exact hpO
  have eS : (outsAt0 m c t.val t.isLt).2 = k0_pay5 (F := Ideal) (iblk m c 0 t) (iblk m c 4 t) (outsAt0 m c (t.val - 1) (Nat.lt_of_le_of_lt (Nat.sub_le _ _) t.isLt)).2 := by
    rw [e]; dsimp only; exact hpS
  refine ⟨fun p r => ?_, fun _ p q => ?_⟩
  · refine (congrFun eS _).trans ?_
    exact Steps.thin_step Xf Ba (iblk m c 0 t) (iblk m c 4 t) (outsAt0 m c (t.val - 1) (Nat.lt_of_le_of_lt (Nat.sub_le _ _) t.isLt)).2 (2048 * (t.val / 64)) (t.val % 16)
      (fun p d => Blocks.x_block m c t p d) (fun d r => Blocks.b_block m c t d r) ihS p r
  · refine (congrFun eO _).trans ?_
    exact Steps.out_step Xf Wa (iblk m c 0 t) (iblk m c 1 t) (outsAt0 m c (t.val - 1) (Nat.lt_of_le_of_lt (Nat.sub_le _ _) t.isLt)).1 (2048 * (t.val / 64))
      (1024 * (t.val / 16 % 4)) (t.val % 16)
      (fun p d => Blocks.x_block m c t p d) (fun q d => Blocks.w_block m c t q d) ihO' p q

/-- A last step leaves the thin block as a middle step does (the output block is read by `last_out`). -/
theorem holds_last (t : Fin cfg0.N) (h0 : ¬t.val % 16 = 0) (h1 : t.val % 16 = 15)
    (ih : Holds m c (t.val - 1) (Nat.lt_of_le_of_lt (Nat.sub_le _ _) t.isLt)) : Holds m c t.val t.isLt := by
  have a1 : (t.val - 1) / 64 = t.val / 64 := by omega
  have a3 : (t.val - 1) % 16 + 1 = t.val % 16 := by omega
  obtain ⟨ihS, -⟩ := ih
  rw [a1, a3] at ihS
  have e := outsAt0_C m c t h0 h1
  have hpS := Pieces.sout_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).1 (outsAt0 m c (t.val - 1) (Nat.lt_of_le_of_lt (Nat.sub_le _ _) t.isLt)).2
  have eS : (outsAt0 m c t.val t.isLt).2 = k0_pay5 (F := Ideal) (iblk m c 0 t) (iblk m c 4 t) (outsAt0 m c (t.val - 1) (Nat.lt_of_le_of_lt (Nat.sub_le _ _) t.isLt)).2 := by
    rw [e]; dsimp only; exact hpS
  refine ⟨fun p r => ?_, fun hne => absurd h1 hne⟩
  refine (congrFun eS _).trans ?_
  exact Steps.thin_step Xf Ba (iblk m c 0 t) (iblk m c 4 t) (outsAt0 m c (t.val - 1) (Nat.lt_of_le_of_lt (Nat.sub_le _ _) t.isLt)).2 (2048 * (t.val / 64)) (t.val % 16)
    (fun p d => Blocks.x_block m c t p d) (fun d r => Blocks.b_block m c t d r) ihS p r

/-- The running blocks after every point, by walking the points in order. -/
theorem holds : ∀ (n : ℕ) (h : n < cfg0.N), Holds m c n h
  | 0, h => holds_first m c ⟨0, h⟩ (Nat.zero_mod 16)
  | n + 1, h => by
    by_cases h0 : (n + 1) % 16 = 0
    · exact holds_first m c ⟨n + 1, h⟩ h0
    · by_cases h1 : (n + 1) % 16 = 15
      · exact holds_last m c ⟨n + 1, h⟩ h0 h1 (holds n (Nat.lt_of_succ_lt h))
      · exact holds_mid m c ⟨n + 1, h⟩ h0 h1 (holds n (Nat.lt_of_succ_lt h))

/-- After a last step the output block holds the finished entries of its tile of the flattened result. -/
theorem last_out (t : Fin cfg0.N) (h1 : t.val % 16 = 15) (p : Fin 2048) (q : Fin 1024) :
    (outsAt0 m c t.val t.isLt).1 (ix2 p q)
      = flatEntry Xf Wa br Aa Ba (2048 * (t.val / 64) + p.val) (1024 * (t.val / 16 % 4) + q.val) := by
  have h0 : ¬t.val % 16 = 0 := by omega
  have a1 : (t.val - 1) / 64 = t.val / 64 := by omega
  have a2 : (t.val - 1) / 16 % 4 = t.val / 16 % 4 := by omega
  have a3 : (t.val - 1) % 16 + 1 = t.val % 16 := by omega
  obtain ⟨ihS, ihO⟩ := holds m c (t.val - 1) (Nat.lt_of_le_of_lt (Nat.sub_le _ _) t.isLt)
  have ihO' := ihO (by omega)
  rw [a1, a3] at ihS
  rw [a1, a2, a3] at ihO'
  have e := outsAt0_C m c t h0 h1
  have hpO := Pieces.out_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).1 (outsAt0 m c (t.val - 1) (Nat.lt_of_le_of_lt (Nat.sub_le _ _) t.isLt)).2
  have eO : (outsAt0 m c t.val t.isLt).1 = k0_pay6 (F := Ideal) (iblk m c 3 t)
      (k0_pay5 (F := Ideal) (iblk m c 0 t) (iblk m c 4 t) (outsAt0 m c (t.val - 1) (Nat.lt_of_le_of_lt (Nat.sub_le _ _) t.isLt)).2)
      (k0_pay4 (F := Ideal) (iblk m c 0 t) (iblk m c 1 t) (outsAt0 m c (t.val - 1) (Nat.lt_of_le_of_lt (Nat.sub_le _ _) t.isLt)).1) (iblk m c 2 t) := by
    rw [e]; dsimp only; exact hpO
  have hS : ∀ (p : Fin 2048) (r : Fin 8),
      k0_pay5 (F := Ideal) (iblk m c 0 t) (iblk m c 4 t) (outsAt0 m c (t.val - 1) (Nat.lt_of_le_of_lt (Nat.sub_le _ _) t.isLt)).2 (ix2 p r)
        = colDot Xf Ba (2048 * (t.val / 64) + p.val) 16 r.val := fun p r =>
    (Steps.thin_step Xf Ba (iblk m c 0 t) (iblk m c 4 t) (outsAt0 m c (t.val - 1) (Nat.lt_of_le_of_lt (Nat.sub_le _ _) t.isLt)).2 (2048 * (t.val / 64)) (t.val % 16)
      (fun p d => Blocks.x_block m c t p d) (fun d r => Blocks.b_block m c t d r) ihS p r).trans (by rw [h1])
  have hO : k0_pay4 (F := Ideal) (iblk m c 0 t) (iblk m c 1 t) (outsAt0 m c (t.val - 1) (Nat.lt_of_le_of_lt (Nat.sub_le _ _) t.isLt)).1 (ix2 p q)
        = rowsDot Xf Wa (2048 * (t.val / 64) + p.val) (1024 * (t.val / 16 % 4) + q.val) 16 :=
    (Steps.out_step Xf Wa (iblk m c 0 t) (iblk m c 1 t) (outsAt0 m c (t.val - 1) (Nat.lt_of_le_of_lt (Nat.sub_le _ _) t.isLt)).1 (2048 * (t.val / 64))
      (1024 * (t.val / 16 % 4)) (t.val % 16)
      (fun p d => Blocks.x_block m c t p d) (fun q d => Blocks.w_block m c t q d) ihO' p q).trans (by rw [h1])
  refine (congrFun eO _).trans ((Steps.close_step Aa br (iblk m c 3 t)
    (k0_pay5 (F := Ideal) (iblk m c 0 t) (iblk m c 4 t) (outsAt0 m c (t.val - 1) (Nat.lt_of_le_of_lt (Nat.sub_le _ _) t.isLt)).2)
    (k0_pay4 (F := Ideal) (iblk m c 0 t) (iblk m c 1 t) (outsAt0 m c (t.val - 1) (Nat.lt_of_le_of_lt (Nat.sub_le _ _) t.isLt)).1) (iblk m c 2 t) (1024 * (t.val / 16 % 4))
    (fun q r => Blocks.a_block m c t q r) (fun q => Blocks.bias_block m c t q) p q).trans ?_)
  unfold flatEntry
  exact congrArg₂ (fun u v => u + (v * Ideal.ofBits .f32 0x40000000#32 + at2 br 0 (1024 * (t.val / 16 % 4) + q.val))) hO
    (Finset.sum_congr rfl fun r _ => congrArg (· * at2 Aa (1024 * (t.val / 16 % 4) + q.val) r.val) (hS p r))

end Cert.KernelIdeal.Running

end
-- ==== Proof.Unflatten.lean ====
import proofs.«137652_j60919816126704_2_alg».proof.Proof.Flat
import Idealize.ShloMosaic.Lib.Pipeline.Value
import Idealize.ShloMosaic.Lib.ValueLayout

/-
  Merging and splitting the row axes.

  An array [2, 4096, 4096] and an array [8192, 4096] hold the same entries in the same row-major order: entry (s, t, k)
  of the first sits at position (4096 s + t) 4096 + k, which is the position of entry (4096 s + t, k) of the second.
  So reading the merged array at row 4096 s + t is reading the original at (s, t), and splitting a two-axis result back
  reads it at row 4096 s + t.  A bias of length 4096 kept as one row [1, 4096] is read at its column.

  Applied to the layer: the flattened result, computed from the merged x and the bias row and then split back, is at
  (s, t, o) the layer's value with the thin axis contracted last.  Only indices are rewritten; nothing is regrouped.
-/

noncomputable section

open scoped BigOperators

namespace Cert.LowRankLinear

open Idealize.ShloMosaic Idealize.ShloMosaic.ValueIdx

/-- Row 4096 s + t, column k of the merged array is entry (s, t, k) of the original. -/
theorem merge_rows_apply {α : Type} (x : SX.Idx → α) (h : SX.ShapeCasts SXflat) (s : Fin 2) (t k : Fin 4096) :
    shapeCast SXflat x h (ix2 (⟨4096 * s.val + t.val, by omega⟩ : Fin 8192) k) = x (ix3 s t k) :=
  shapeCast_apply x h _ _ (by
    rw [Shape.rowMajor_val_three, Shape.rowMajor_val_two]
    show (s.val * 4096 + t.val) * 4096 + k.val = (4096 * s.val + t.val) * 4096 + k.val
    omega)

/-- The bias kept as a single row is read at its column. -/
theorem bias_row_apply {α : Type} (b : Sb.Idx → α) (h : Sb.ShapeCasts Sbrow) (o : Fin 4096) :
    shapeCast Sbrow b h (ix2 (0 : Fin 1) o) = b (ix1 o) :=
  shapeCast_a_1a_apply b h 0 o

/-- Entry (s, t, o) of a two-axis array split into [2, 4096, 4096] is its entry at row 4096 s + t, column o. -/
theorem split_rows_apply {α : Type} (y : SXflat.Idx → α) (h : SXflat.ShapeCasts SX) (s : Fin 2) (t o : Fin 4096) :
    shapeCast SX y h (ix3 s t o) = y (ix2 (⟨4096 * s.val + t.val, by omega⟩ : Fin 8192) o) :=
  shapeCast_apply y h _ _ (by
    rw [Shape.rowMajor_val_two, Shape.rowMajor_val_three]
    show (4096 * s.val + t.val) * 4096 + o.val = (s.val * 4096 + t.val) * 4096 + o.val
    omega)

/-- The layer with the thin axis contracted last, at an index given by its coordinates. -/
theorem thinLast_ix (x : FVec Ideal SX .f32) (w : FVec Ideal SW .f32) (b : FVec Ideal Sb .f32) (a bm : FVec Ideal ST .f32)
    (s : Fin 2) (t o : Fin 4096) :
    thinLast x w b a bm (ix3 s t o)
      = base x w s t o + ((∑ r : Fin 8, thin x bm s t r * a (ix2 o r)) * scale + b (ix1 o)) := rfl

/-- Splitting the flattened result of the merged x and the bias row gives the layer with the thin axis contracted
    last: at (s, t, o) the flattened entry at row 4096 s + t and column o is a dot product of row (s, t) of x with
    row o of W, plus the scaled thin correction, plus b(o). -/
theorem unflatten_result (x : FVec Ideal SX .f32) (w : FVec Ideal SW .f32) (b : FVec Ideal Sb .f32) (a bm : FVec Ideal ST .f32)
    (h1 : SX.ShapeCasts SXflat) (h2 : Sb.ShapeCasts Sbrow) (h3 : SXflat.ShapeCasts SX) :
    shapeCast SX (flatResult (shapeCast SXflat x h1) w (shapeCast Sbrow b h2) a bm) h3 = thinLast x w b a bm := by
  funext i
  obtain ⟨s, t, o, rfl⟩ : ∃ (s : Fin 2) (t o : Fin 4096), i = ix3 s t o := ⟨i 0, i 1, i 2, eq_ix3 i⟩
  have hM : 4096 * s.val + t.val < 8192 := by omega
  rw [split_rows_apply, thinLast_ix]
  show flatEntry (shapeCast SXflat x h1) w (shapeCast Sbrow b h2) a bm (4096 * s.val + t.val) o.val = _
  unfold flatEntry
  -- the two kinds of dot product over all sixteen tiles, with the merged x read back as x
  have e1 : rowsDot (shapeCast SXflat x h1) w (4096 * s.val + t.val) o.val 16 = base x w s t o := by
    refine (rowsDot_full (shapeCast SXflat x h1) w (⟨4096 * s.val + t.val, hM⟩ : Fin 8192) o).trans ?_
    unfold base
    exact Finset.sum_congr rfl fun k _ => by rw [merge_rows_apply x h1 s t k]
  have e2 : ∀ r : Fin 8, colDot (shapeCast SXflat x h1) bm (4096 * s.val + t.val) 16 r.val = thin x bm s t r := by
    intro r
    refine (colDot_full (shapeCast SXflat x h1) bm (⟨4096 * s.val + t.val, hM⟩ : Fin 8192) r).trans ?_
    unfold thin
    exact Finset.sum_congr rfl fun k _ => by rw [merge_rows_apply x h1 s t k]
  -- A and the bias row read inside their bounds
  have e3 : ∀ r : Fin 8, at2 a o.val r.val = a (ix2 o r) := fun r => at2_of_lt a o.isLt r.isLt
  have e4 : at2 (shapeCast Sbrow b h2) 0 o.val = b (ix1 o) :=
    (at2_of_lt (shapeCast Sbrow b h2) Nat.one_pos o.isLt).trans (bias_row_apply b h2 o)
  rw [e1, e4]
  simp only [e2, e3]

end Cert.LowRankLinear

end
-- ==== Proof.Result.lean ====
/-
  The kernel's result array.

  An output tile is written back once, after the last of its sixteen steps, and then holds the finished entries of rows
  2048 i + p and columns 1024 j + q of the flattened result; the sixteen tiles cover the flattened result, so the array
  the kernel leaves is the flattened result, and the program's last line splits its rows back into [2, 4096, 4096].  The
  flattened x and the bias row the kernel works on are the program's first two lines applied to the arguments, so the
  result is the layer with the thin axis contracted last, of the argument arrays.
-/
import proofs.«137652_j60919816126704_2_alg».proof.Proof.Running
import proofs.«137652_j60919816126704_2_alg».proof.Proof.Unflatten
import Idealize.ShloMosaic.Lib.Pipeline.Value
import Idealize.ShloMosaic.Lib.StableHlo.Run

noncomputable section

open scoped BigOperators
open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen Cert.LowRankLinear

variable (m : (ℓ : Loc nD τ sig) → Buf (Elt Ideal) ℓ) (ρ : Dev nD → PrngReg) (c : Dev nD)

local notation "Xf" => (V m c main_v0 : S8192x4096.Idx → EReal)
local notation "Wa" => (V m c main_arg1 : S4096x4096.Idx → EReal)
local notation "br" => (V m c main_v1 : S1x4096.Idx → EReal)
local notation "Aa" => (V m c main_arg3 : S4096x8.Idx → EReal)
local notation "Ba" => (V m c main_arg4 : S4096x8.Idx → EReal)

/-- The flattened x the kernel finds is the program's first line applied to the argument. -/
theorem flat_x : Xf = shapeCast S8192x4096 (m ((c : Thread nD τ).loc main_arg0)) Facts₀.shapeCasts_S2x4096x4096_S8192x4096 := by
  show StableHlo.after hostOps0 (fun b => m (c, b)) (Proc.devRef .tc main_v0) = _
  after_results
  rfl

/-- The bias row the kernel finds is the program's second line applied to the argument. -/
theorem bias_row : br = shapeCast S1x4096 (m ((c : Thread nD τ).loc main_arg2)) Facts₀.shapeCasts_S4096_S1x4096 := by
  show StableHlo.after hostOps0 (fun b => m (c, b)) (Proc.devRef .tc main_v1) = _
  after_results
  rfl

/-- What a write-back writes: the tile of the flattened result at the point's row- and column-tile. -/
theorem flushed_eq (t : Fin cfg0.N) (hf : (cfg0.win 5).flush t = true) :
    (dats m 0 c).flushed 5 t = ((cfg0.win 5).blk t).view.read (Elt Ideal) (flatResult Xf Wa br Aa Ba) := by
  have h15 : t.val % 16 = 15 := (flush0_5 t).mp hf
  obtain ⟨-, -, -, -, -, -, -, -, -, -, e0, e1⟩ := Blocks.idx_facts t
  show (cfg0.win 5).cut (grid0.coords t) ((dats m 0 c).after 5 t) = _
  rw [after0_5]
  funext y
  obtain ⟨p, q, rfl⟩ : ∃ (p : Fin 2048) (q : Fin 1024), y = ix2 p q := ⟨y 0, y 1, eq_ix2 y⟩
  show (outsAt0 m c t.val t.isLt).1 (ix2 p q) = flatResult Xf Wa br Aa Ba (((cfg0.win 5).blk t).view.emb (ix2 p q))
  refine (Running.last_out m c t h15 p q).trans ?_
  have c0 : ((((cfg0.win 5).blk t).view.emb (ix2 p q)) 0).val = 2048 * (t.val / 64) + p.val := by
    show win0_5.index t (0 : Fin 2) * 2048 + 1 * p.val = _; omega
  have c1 : ((((cfg0.win 5).blk t).view.emb (ix2 p q)) 1).val = 1024 * (t.val / 16 % 4) + q.val := by
    show win0_5.index t (1 : Fin 2) * 1024 + 1 * q.val = _; omega
  show flatEntry Xf Wa br Aa Ba _ _
    = flatEntry Xf Wa br Aa Ba ((((cfg0.win 5).blk t).view.emb (ix2 p q)) 0).val ((((cfg0.win 5).blk t).view.emb (ix2 p q)) 1).val
  rw [c0, c1]

/-- An entry of the flattened result lies in a point's tile iff each coordinate lies in the tile's range. -/
theorem mem_blk (t : Fin cfg0.N) (i : S8192x4096.Idx) :
    i ∈ ((cfg0.win 5).blk t).view.set ↔ ∀ a : Fin 2, win0_5.index t a * S2048x1024.size a ≤ (i a).val
      ∧ (i a).val < win0_5.index t a * S2048x1024.size a + S2048x1024.size a := by
  show i ∈ ((View.whole main_v2).slice (win0_5.rect t)).set ↔ _
  rw [View.set_slice_whole, Rect.mem_set_unit]
  exact Iff.rfl

/-- Every entry is in the tile of some write-back: the last step of its row- and column-tile. -/
theorem cover (i : S8192x4096.Idx) : ∃ t : Fin cfg0.N, (cfg0.win 5).flush t = true ∧ i ∈ ((cfg0.win 5).blk t).view.set := by
  have hi0 : (i 0).val < 8192 := (i 0).isLt
  have hi1 : (i 1).val < 4096 := (i 1).isLt
  have hlt : 64 * ((i 0).val / 2048) + 16 * ((i 1).val / 1024) + 15 < cfg0.N := by
    rw [show cfg0.N = 256 from N_0]; omega
  refine ⟨⟨64 * ((i 0).val / 2048) + 16 * ((i 1).val / 1024) + 15, hlt⟩, (flush0_5 _).mpr (by dsimp only; omega), ?_⟩
  obtain ⟨-, -, -, -, -, -, -, -, -, -, e0, e1⟩ := Blocks.idx_facts ⟨64 * ((i 0).val / 2048) + 16 * ((i 1).val / 1024) + 15, hlt⟩
  dsimp only at e0 e1
  rw [mem_blk]
  intro a
  match a with
  | ⟨0, _⟩ =>
    show win0_5.index _ (0 : Fin 2) * 2048 ≤ (i 0).val ∧ (i 0).val < win0_5.index _ (0 : Fin 2) * 2048 + 2048
    rw [e0]; omega
  | ⟨1, _⟩ =>
    show win0_5.index _ (1 : Fin 2) * 1024 ≤ (i 1).val ∧ (i 1).val < win0_5.index _ (1 : Fin 2) * 1024 + 1024
    rw [e1]; omega

/-- The array the kernel leaves is the flattened result. -/
theorem final : (dats m 0 c).arrAt 5 cfg0.N = flatResult Xf Wa br Aa Ba :=
  (dats m 0 c).arrAt_eq_of_cover 5 (flatResult Xf Wa br Aa Ba) (flushed_eq m c) cover

/-- The program's last line splits the rows of that array back: the layer of the arguments. -/
theorem tail_result :
    Pipeline.afterTail₀ cfgs (dats m) 0 (V0 m) [hostOps1] c main_v3
      = thinLast (m ((c : Thread nD τ).loc main_arg0)) (m ((c : Thread nD τ).loc main_arg1))
          (m ((c : Thread nD τ).loc main_arg2)) (m ((c : Thread nD τ).loc main_arg3)) (m ((c : Thread nD τ).loc main_arg4)) := by
  have hres := unflatten_result (m ((c : Thread nD τ).loc main_arg0)) (m ((c : Thread nD τ).loc main_arg1))
    (m ((c : Thread nD τ).loc main_arg2)) (m ((c : Thread nD τ).loc main_arg3)) (m ((c : Thread nD τ).loc main_arg4))
    Facts₀.shapeCasts_S2x4096x4096_S8192x4096 Facts₀.shapeCasts_S4096_S1x4096 Facts₀.shapeCasts_S8192x4096_S2x4096x4096
  rw [← flat_x m c, ← bias_row m c, ← V_main_arg1 m c, ← V_main_arg3 m c, ← V_main_arg4 m c] at hres
  refine Eq.trans ?_ hres
  unfold Pipeline.afterTail₀
  show StableHlo.after hostOps1 _ (Proc.devRef .tc main_v3) = _
  after_results
  exact congrArg (fun y => shapeCast S2x4096x4096 y Facts₀.shapeCasts_S8192x4096_S2x4096x4096)
    ((Pipeline.withArrays_arr spec0 launch0.win.arr_inj c _ _ 5).trans (final m c))

/-- The kernel's run, read: the result at the layer of the arguments, the arguments unchanged. -/
theorem run : θ_run defs (onTc (τ := τ) (main (F := Ideal))) ⟨m, fun _ => 0, ρ⟩ fun r => ∀ c : Dev nD,
      r.2.mem ((c.tc : Thread nD τ).loc main_v3)
        = thinLast (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v3 (Pipeline.mem_restRefs_of main_v3 (by decide) (by decide))).trans (tail_result m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩)
    (run_main m ρ)

end Cert.KernelIdeal.Result

end
-- ==== Proof.lean ====
/-
  The certificate of a linear layer with a rank-8 correction.

  The kernel computes x W^T + b + ((x B) A^T) * 2 tile by tile: sixteen steps along the contraction axis accumulate the
  base product and the thin product x B, and the last step adds the correction, built from the thin product, and the
  bias.  The reference computes (x W^T + b) + (x (A B^T)^T) * 2.  On the extended reals a change of float format is the
  identity and sums may be regrouped freely, so the kernel's result is the layer with the thin axis contracted last
  (module Result) and the reference's is the layer with the correction matrix built first (module RefValue).  The two
  agree when x, A and B have real entries — products distribute over finite sums of reals, not over sums that may
  contain infinities — and the precondition says every input is finite (modules Finite and Spec).  The three frame
  claims are the generated frame runs; the idealization rewrote nothing.
-/
import proofs.«137652_j60919816126704_2_alg».proof.Defs
import proofs.«137652_j60919816126704_2_alg».proof.Proof.Gen.Kernel
import proofs.«137652_j60919816126704_2_alg».proof.Proof.Gen.Kernel.Frame
import proofs.«137652_j60919816126704_2_alg».proof.Proof.Gen.KernelIdeal
import proofs.«137652_j60919816126704_2_alg».proof.Proof.Gen.KernelIdeal.Frame
import proofs.«137652_j60919816126704_2_alg».proof.Proof.Gen.ReferenceIdeal
import proofs.«137652_j60919816126704_2_alg».proof.Proof.Gen.ReferenceIdeal.Run
import proofs.«137652_j60919816126704_2_alg».proof.Proof.Gen.ReferenceIdeal.Read
import proofs.«137652_j60919816126704_2_alg».proof.Proof.Gen.Pre_finite_inputs
import proofs.«137652_j60919816126704_2_alg».proof.Proof.Spec
import proofs.«137652_j60919816126704_2_alg».proof.Proof.Finite
import proofs.«137652_j60919816126704_2_alg».proof.Proof.RefValue
import proofs.«137652_j60919816126704_2_alg».proof.Proof.Result
import Idealize.ShloMosaic.Adequacy
import Idealize.ShloMosaic.Init

noncomputable section

namespace Cert.Proof

open Idealize.ShloMosaic Idealize.ShloMosaic.TcCoe Idealize.SL.Sem Cert.LowRankLinear

/-- The kernel as printed runs to the end and leaves its arguments alone. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end at the layer with the thin axis contracted last, of arguments that agree: the kernel by its run,
    the reference because with real entries of x, A and B building the correction matrix first gives the same numbers. -/
theorem algebraic : Cert.algebraic_KernelIdeal_ReferenceIdeal := by
  intro m ρ m' ρ' hpre hagree
  refine ⟨fun c => thinLast (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨hx, ha, hb⟩ := real_of_finite _ _ _ _ _ (hpre c)
  rw [Cert.ReferenceIdeal.Read.val_main_v8_eq, ref_eq, (hagree c).1, (hagree c).2.1, (hagree c).2.2.1, (hagree c).2.2.2.1,
    (hagree c).2.2.2.2]
  exact matrixFirst_eq_thinLast _ _ _ _ _ hx ha hb

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
